-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_temperature" .f32 0x41200000#32 ((134217728 / 13421773 : ℝ) : EReal)
  ∧ IdealRules.named_const.Statement Cert.KernelIdeal.κ "inv_temperature" .f32 0x41200000#32 ((134217728 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x2048 : Shape := ⟨3, ![16, 256, 2048]⟩
abbrev S16x256x1 : Shape := ⟨3, ![16, 256, 1]⟩
abbrev S_ : Shape := ⟨0, ![]⟩

class Facts : Prop where
  bcast_S_S16x256x2048 : S_.BroadcastsInDim S16x256x2048 (![] : Fin 0 → Fin S16x256x2048.rank)
  reducesTo_S16x256x2048_S_d0_1_2 : S16x256x2048.ReducesTo [0, 1, 2] S_
  h_S_ : 0 < S_.numel
  bcast_S_S16x256x1 : S_.BroadcastsInDim S16x256x1 (![] : Fin 0 → Fin S16x256x1.rank)
  reducesTo_S16x256x1_S_d0_1_2 : S16x256x1.ReducesTo [0, 1, 2] S_

variable [Facts]

def fn {F : FTy → Type} [FloatOps F] (main_arg0 : FVec F S16x256x2048 .f32) (main_arg1 : FVec F S16x256x1 .f32) (main_arg2 : FVec F S16x256x2048 .f32) : IVec S_ 1 :=
  let main_v0 : FVec F S16x256x2048 .f32 := Host.absf main_arg0
  let main_cst : FVec F S_ .f32 := constant S_ .f32 0x7F800000#32
  let main_v1 : FVec F S16x256x2048 .f32 := broadcastInDim S16x256x2048 ![] bcast_S_S16x256x2048 main_cst
  let main_v2 : IVec S16x256x2048 1 := cmpf .olt main_v0 main_v1
  let main_c : IVec S_ 1 := constantI S_ 1 1#1
  let main_v3 : IVec S_ 1 := (fun x v => Host.reduce IntOp.andi x v reducesTo_S16x256x2048_S_d0_1_2 h_S_) main_v2 main_c
  let main_v4 : FVec F S16x256x1 .f32 := Host.absf main_arg1
  let main_cst_0 : FVec F S_ .f32 := constant S_ .f32 0x7F800000#32
  let main_v5 : FVec F S16x256x1 .f32 := broadcastInDim S16x256x1 ![] bcast_S_S16x256x1 main_cst_0
  let main_v6 : IVec S16x256x1 1 := cmpf .olt main_v4 main_v5
  let main_c_1 : IVec S_ 1 := constantI S_ 1 1#1
  let main_v7 : IVec S_ 1 := (fun x v => Host.reduce IntOp.andi x v reducesTo_S16x256x1_S_d0_1_2 h_S_) main_v6 main_c_1
  let main_v8 : IVec S_ 1 := andi main_v3 main_v7
  let main_v9 : FVec F S16x256x2048 .f32 := Host.absf main_arg2
  let main_cst_2 : FVec F S_ .f32 := constant S_ .f32 0x7F800000#32
  let main_v10 : FVec F S16x256x2048 .f32 := broadcastInDim S16x256x2048 ![] bcast_S_S16x256x2048 main_cst_2
  let main_v11 : IVec S16x256x2048 1 := cmpf .olt main_v9 main_v10
  let main_c_3 : IVec S_ 1 := constantI S_ 1 1#1
  let main_v12 : IVec S_ 1 := (fun x v => Host.reduce IntOp.andi x v reducesTo_S16x256x2048_S_d0_1_2 h_S_) main_v11 main_c_3
  let main_v13 : IVec S_ 1 := andi main_v8 main_v12
  main_v13
-- ==== Kernel.lean ====
abbrev S16x256x2048 : Shape := ⟨3, ![16, 256, 2048]⟩
abbrev S16x256x1 : Shape := ⟨3, ![16, 256, 1]⟩
abbrev S16x2048x1 : Shape := ⟨3, ![16, 2048, 1]⟩
abbrev S1x256x512 : Shape := ⟨3, ![1, 256, 512]⟩
abbrev S1x256x1 : Shape := ⟨3, ![1, 256, 1]⟩
abbrev S1x256x2048 : Shape := ⟨3, ![1, 256, 2048]⟩
abbrev S1x512x1 : Shape := ⟨3, ![1, 512, 1]⟩
abbrev S256x512 : Shape := ⟨2, ![256, 512]⟩
abbrev S256x1 : Shape := ⟨2, ![256, 1]⟩
abbrev S256x2048 : Shape := ⟨2, ![256, 2048]⟩
abbrev S512x1 : Shape := ⟨2, ![512, 1]⟩
abbrev S512x2048 : Shape := ⟨2, ![512, 2048]⟩
abbrev S512 : Shape := ⟨1, ![512]⟩
abbrev S_ : Shape := ⟨0, ![]⟩

abbrev nBuf : Space → Nat
  | .hbm => 8
  | .vmem => 8
  | .smem => 0
  | _ => 0

abbrev bufTy : (tb : Table) → Fin (tcTables nBuf tb) → BufTy
  | .hbm, ⟨0, _⟩ => ⟨S16x256x2048, .f32⟩
  | .hbm, ⟨1, _⟩ => ⟨S16x256x1, .f32⟩
  | .hbm, ⟨2, _⟩ => ⟨S16x256x2048, .f32⟩
  | .hbm, ⟨3, _⟩ => ⟨S16x2048x1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S1x256x512, .f32⟩
  | .local _ .vmem, ⟨1, _⟩ => ⟨S1x256x512, .f32⟩
  | .local _ .vmem, ⟨2, _⟩ => ⟨S1x256x1, .f32⟩
  | .local _ .vmem, ⟨3, _⟩ => ⟨S1x256x1, .f32⟩
  | .local _ .vmem, ⟨4, _⟩ => ⟨S1x256x2048, .f32⟩
  | .local _ .vmem, ⟨5, _⟩ => ⟨S1x256x2048, .f32⟩
  | .local _ .vmem, ⟨6, _⟩ => ⟨S1x512x1, .f32⟩
  | .local _ .vmem, ⟨7, _⟩ => ⟨S1x512x1, .f32⟩
  | _, _ => ⟨S16x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  bitsLt_bf16_f32 : FTy.bits .bf16 < FTy.bits .f32
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  reduces_S512x2048_S512 : S512x2048.Reduces [1] S512
  shapeCasts_S512_S512x1 : S512.ShapeCasts S512x1
  broadcasts_S512x1_S512x2048 : S512x1.Broadcasts S512x2048
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  shapeCasts_S512x1_S1x512x1 : S512x1.ShapeCasts S1x512x1
  reducesTo_S16x2048x1_S_d0_1_2 : S16x2048x1.ReducesTo [0, 1, 2] S_
  h_S_ : 0 < S_.numel
  dot_S256x512_S256x1_S512x1_0_0_1_1_n_n_wf : DotDims.WF S256x512 S256x1 S512x1 [0] [0] [1] [1] [] []
  dot_S256x512_S256x2048_S512x2048_0_0_1_1_n_n_wf : DotDims.WF S256x512 S256x2048 S512x2048 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x512.size a ≤ S16x256x2048.size a
  hwx0_0 : ∀ i : grid0.Coords, EltTy.bits .f32 = 32 ∨ (Rect.block (s := S16x256x2048) S1x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x1.size a ≤ S16x256x1.size a
  hwx0_1 : ∀ i : grid0.Coords, EltTy.bits .f32 = 32 ∨ (Rect.block (s := S16x256x1) S1x256x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x2048.size a ≤ S16x256x2048.size a
  hwx0_2 : ∀ i : grid0.Coords, EltTy.bits .f32 = 32 ∨ (Rect.block (s := S16x256x2048) S1x256x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1.size a ≤ S16x2048x1.size a
  hwx0_3 : ∀ i : grid0.Coords, EltTy.bits .f32 = 32 ∨ (Rect.block (s := S16x2048x1) S1x512x1.size (cc0_transform_3 i) (hinb0_3 i)).WholeWords (EltTy.packing .f32)

variable [Facts₀]

def dot_S256x512_S256x1_S512x1_0_0_1_1_n_n : DotDims S256x512 S256x1 S512x1 where
  lhsContracting := [0]
  rhsContracting := [0]
  lhsNonContracting := [1]
  rhsNonContracting := [1]
  lhsBatch := []
  rhsBatch := []
  wf := dot_S256x512_S256x1_S512x1_0_0_1_1_n_n_wf
def dot_S256x512_S256x2048_S512x2048_0_0_1_1_n_n : DotDims S256x512 S256x2048 S512x2048 where
  lhsContracting := [0]
  rhsContracting := [0]
  lhsNonContracting := [1]
  rhsNonContracting := [1]
  lhsBatch := []
  rhsBatch := []
  wf := dot_S256x512_S256x2048_S512x2048_0_0_1_1_n_n_wf

abbrev win0_0 : Pipeline.Window sig grid0 :=
  Pipeline.Window.ofSpec (Memref.whole main_arg0) S1x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x256x2048 : Shape := ⟨3, ![16, 256, 2048]⟩
abbrev S16x256x1 : Shape := ⟨3, ![16, 256, 1]⟩
abbrev S16x2048x1 : Shape := ⟨3, ![16, 2048, 1]⟩
abbrev S16x2048x2048 : Shape := ⟨3, ![16, 2048, 2048]⟩
abbrev S16x2048x2049 : Shape := ⟨3, ![16, 2048, 2049]⟩
abbrev S_ : Shape := ⟨0, ![]⟩
abbrev S16x2048 : Shape := ⟨2, ![16, 2048]⟩

abbrev nBuf : Space → Nat
  | .hbm => 31
  | .vmem => 0
  | .smem => 0
  | _ => 0

abbrev bufTy : (tb : Table) → Fin (tcTables nBuf tb) → BufTy
  | .hbm, ⟨0, _⟩ => ⟨S16x256x2048, .f32⟩
  | .hbm, ⟨1, _⟩ => ⟨S16x256x1, .f32⟩
  | .hbm, ⟨2, _⟩ => ⟨S16x256x2048, .f32⟩
  | .hbm, ⟨3, _⟩ => ⟨S16x2048x1, .f32⟩
  | .hbm, ⟨4, _⟩ => ⟨S16x2048x2048, .f32⟩
  | .hbm, ⟨5, _⟩ => ⟨S16x2048x2049, .f32⟩
  | .hbm, ⟨6, _⟩ => ⟨S_, .f32⟩
  | .hbm, ⟨7, _⟩ => ⟨S16x2048x2049, .f32⟩
  | .hbm, ⟨8, _⟩ => ⟨S16x2048x2049, .f32⟩
  | .hbm, ⟨9, _⟩ => ⟨S_, .f32⟩
  | .hbm, ⟨10, _⟩ => ⟨S16x2048, .f32⟩
  | .hbm, ⟨11, _⟩ => ⟨S_, .f32⟩
  | .hbm, ⟨12, _⟩ => ⟨S16x2048, .f32⟩
  | .hbm, ⟨13, _⟩ => ⟨S16x2048, .f32⟩
  | .hbm, ⟨14, _⟩ => ⟨S16x2048x1, .f32⟩
  | .hbm, ⟨15, _⟩ => ⟨S16x2048x2049, .f32⟩
  | .hbm, ⟨16, _⟩ => ⟨S16x2048x2049, .f32⟩
  | .hbm, ⟨17, _⟩ => ⟨S16x2048x2049, .f32⟩
  | .hbm, ⟨18, _⟩ => ⟨S_, .f32⟩
  | .hbm, ⟨19, _⟩ => ⟨S16x2048, .f32⟩
  | .hbm, ⟨20, _⟩ => ⟨S16x2048x1, .f32⟩
  | .hbm, ⟨21, _⟩ => ⟨S16x2048x1, .f32⟩
  | .hbm, ⟨22, _⟩ => ⟨S16x2048x2049, .f32⟩
  | .hbm, ⟨23, _⟩ => ⟨S16x2048x2049, .f32⟩
  | .hbm, ⟨24, _⟩ => ⟨S16x2048x1, .f32⟩
  | .hbm, ⟨25, _⟩ => ⟨S16x2048, .f32⟩
  | .hbm, ⟨26, _⟩ => ⟨S16x2048, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | _, _ => ⟨S16x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_call0_cst_0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_cst_1 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst_0 : Ref sig .tc := ⟨.hbm, 27, rfl⟩
abbrev main_v9 : Ref sig .tc := ⟨.hbm, 28, rfl⟩
abbrev main_cst_1 : Ref sig .tc := ⟨.hbm, 29, rfl⟩
abbrev main_v10 : Ref sig .tc := ⟨.hbm, 30, rfl⟩

abbrev nD : Nat := 1
abbrev τ : Topo := Topo.v7x

variable {F : FTy → Type} [FloatOps F]

class Facts₀ : Prop where
  concatenates_S16x2048x1_S16x2048x2048_S16x2048x2049_d2 : Shape.Concatenates [S16x2048x1, S16x2048x2048] S16x2048x2049 2
  bcast_S_S16x2048x2049 : S_.BroadcastsInDim S16x2048x2049 (![] : Fin 0 → Fin S16x2048x2049.rank)
  reducesTo_S16x2048x2049_S16x2048_d2 : S16x2048x2049.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2049_0_1_2 : S16x2048x1.BroadcastsInDim S16x2048x2049 (![0, 1, 2] : Fin 3 → Fin S16x2048x2049.rank)
  slices_S16x2048x2049_S16x2048x1_0_0_0 : S16x2048x2049.Slices ![0, 0, 0] S16x2048x1
  shapeCasts_S16x2048x1_S16x2048 : S16x2048x1.ShapeCasts S16x2048
  reducesTo_S16x2048_S_d0_1 : S16x2048.ReducesTo [0, 1] S_
  dot_S16x256x2048_S16x256x1_S16x2048x1_1_1_2_2_0_0_wf : DotDims.WF S16x256x2048 S16x256x1 S16x2048x1 [1] [1] [2] [2] [0] [0]
  dot_S16x256x2048_S16x256x2048_S16x2048x2048_1_1_2_2_0_0_wf : DotDims.WF S16x256x2048 S16x256x2048 S16x2048x2048 [1] [1] [2] [2] [0] [0]

variable [Facts₀]

def dot_S16x256x2048_S16x256x1_S16x2048x1_1_1_2_2_0_0 : DotDims S16x256x2048 S16x256x1 S16x2048x1 where
  lhsContracting := [1]
  rhsContracting := [1]
  lhsNonContracting := [2]
  rhsNonContracting := [2]
  lhsBatch := [0]
  rhsBatch := [0]
  wf := dot_S16x256x2048_S16x256x1_S16x2048x1_1_1_2_2_0_0_wf
def dot_S16x256x2048_S16x256x2048_S16x2048x2048_1_1_2_2_0_0 : DotDims S16x256x2048 S16x256x2048 S16x2048x2048 where
  lhsContracting := [1]
  rhsContracting := [1]
  lhsNonContracting := [2]
  rhsNonContracting := [2]
  lhsBatch := [0]
  rhsBatch := [0]
  wf := dot_S16x256x2048_S16x256x2048_S16x2048x2048_1_1_2_2_0_0_wf

class Facts : Prop extends Facts₀ where

variable [Facts]
-- ==== Proof.LibTypedRef.lean ====
/-
  A typed reference carries a proof that its buffer's type is the tensor value's type, and moves contents between the
  two types along that proof.  Moving a value to the buffer's type and back gives the value again: the two moves are
  transports along an equation and its inverse.  General in the signature, the type and the values.
-/
import Idealize.ShloMosaic.Lib.StableHlo

namespace Cert.Lib.TypedRef

open Idealize.ShloMosaic Idealize.ShloMosaic.StableHlo

/-- Contents moved to the buffer's own type and back are unchanged. -/
theorem ofBuf_toBuf {sig : RefSig} {T : BufTy} {Val : EltTy → Type} (x : TRef sig T) (v : T.Contents Val) :
    x.ofBuf (x.toBuf v) = v := by
  obtain ⟨r, h, _, _⟩ := x
  subst h
  rfl

end Cert.Lib.TypedRef
-- ==== Proof.Spec.lean ====
/-
  The InfoNCE patch loss, as functions on the extended reals.

  For a batch `b` and a query position `q` the positive score is the inner product over the 256 channels of the query
  column `(b, ·, q)` with the one positive column, and the negative scores are its inner products with the 2048 negative
  columns.  Every score is scaled by the reciprocal of the temperature.  The loss of the row is the log-sum-exp of all
  2049 scaled scores minus the scaled positive score.  Two ways of writing it are stated here:

    * `rowLossShifted`: the largest score `m` is the larger of the positive score and the largest negative score, the
      sum of exponentials is the positive term plus the sum over the negatives, and the loss is `(m + log l) - s₊`;
    * `rowLossLogSoftmax`: the 2049 scores are one row (the positive first), shifted by their maximum, and the loss is the
      negated first entry of the row minus the logarithm of the sum of exponentials of the shifted row.

  Both start their maximum from minus infinity and the second starts its sum from zero, as the two programs do.
-/
import Idealize.ShloMosaic.PureOps.Ideal.Laws
import Idealize.ShloMosaic.Lib.ValueIdx

noncomputable section

namespace Cert.PatchNCE

open Idealize.ShloMosaic Idealize.ShloMosaic.ValueIdx

/-- The shape of the query and negative arrays: batch, channel, position. -/
abbrev SQ : Shape := ⟨3, ![16, 256, 2048]⟩
/-- The shape of the positive array: batch, channel, one position. -/
abbrev SP : Shape := ⟨3, ![16, 256, 1]⟩

/-- The reciprocal of the temperature as the reference holds it: the temperature word denotes 13421773 / 134217728. -/
def invT : EReal := ((134217728 / 13421773 : ℝ) : EReal)

/-- The positive score of batch `b`, query position `q`, before scaling. -/
def posDot (Q : SQ.Idx → EReal) (P : SP.Idx → EReal) (b : Fin 16) (q : Fin 2048) : EReal :=
  ∑ k : Fin 256, Q (ix3 b k q) * P (ix3 b k (0 : Fin 1))

/-- The negative score of batch `b`, query position `q`, against negative position `n`, before scaling. -/
def negDot (Q N : SQ.Idx → EReal) (b : Fin 16) (q n : Fin 2048) : EReal :=
  ∑ k : Fin 256, Q (ix3 b k q) * N (ix3 b k n)

/-- The row's loss from the scaled positive score and the scaled negative scores, with the shift taken as the larger of
    the positive score and the largest negative one. -/
def rowLossShifted (sp : EReal) (sn : Fin 2048 → EReal) : EReal :=
  (max sp ((Finset.univ : Finset (Fin 2048)).fold max ⊥ sn)
      + Ideal.log (Ideal.exp (sp - max sp ((Finset.univ : Finset (Fin 2048)).fold max ⊥ sn))
          + ∑ n : Fin 2048, Ideal.exp (sn n - max sp ((Finset.univ : Finset (Fin 2048)).fold max ⊥ sn))))
    - sp

/-- The row of all 2049 scaled scores: the positive one first, then the negatives. -/
def scoreRow (sp : EReal) (sn : Fin 2048 → EReal) : Fin 2049 → EReal :=
  fun j => if h : j.val = 0 then sp else sn ⟨j.val - 1, by have := j.isLt; omega⟩

/-- The row's loss as the negated first entry of the log-softmax of the row of scores. -/
def rowLossLogSoftmax (x : Fin 2049 → EReal) : EReal :=
  -((x 0 - max ⊥ ((Finset.univ : Finset (Fin 2049)).fold max ⊥ x))
      - Ideal.log (0 + ∑ j : Fin 2049, Ideal.exp (x j - max ⊥ ((Finset.univ : Finset (Fin 2049)).fold max ⊥ x))))

/-- The scaled positive score. -/
def sPos (Q : SQ.Idx → EReal) (P : SP.Idx → EReal) (b : Fin 16) (q : Fin 2048) : EReal := posDot Q P b q * invT
/-- The scaled negative scores. -/
def sNeg (Q N : SQ.Idx → EReal) (b : Fin 16) (q : Fin 2048) : Fin 2048 → EReal := fun n => negDot Q N b q n * invT

end Cert.PatchNCE

end
-- ==== Proof.LibColumnLayout.lean ====
/-
  Two layout operations read at an index given by coordinates: the column forms a `keepdims` row reduction meets.
  A vector of `a` row values becomes an `[a, 1]` column by a shape cast, and that column is repeated along a new
  second axis of extent `b` by a broadcast; read at `(i, j)` the result is the vector's value at `i`, whatever `j`.
  General in the extents; stated over indices built from coordinates so that they apply by unification.
-/
import Idealize.ShloMosaic.Lib.ValueLayout

namespace Cert.Lib.ColumnLayout

open Idealize.ShloMosaic Idealize.ShloMosaic.ValueIdx

variable {α : Type}

/-- An `[a]` array cast to the column `[a, 1]` reads, at `(i, u)`, the operand at `i`, whatever the unit coordinate `u`:
    both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`: the unit axis is read at `0`,
    the row axis at `p` (when `a` is itself `1` the row coordinate is `0` either way). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.ColumnLayout
-- ==== Proof.LibReduceLayout.lean ====
/-
  Sums and one more column form, read at an index given by coordinates, over the extended reals.
    * a sum along the second axis of an `[a, n]` array, read at row `p`, is the sum over `k` of the entries `(p, k)`;
    * a sum along the first axis of a column `[a, 1]`, read at its one index, is the sum over `p` of the entries `(p, 0)`;
    * a column `[a, 1]` transposed to the row `[1, a]` and repeated along a new first axis of extent `b` reads, at
      `(p, q)`, the column's entry in row `q`.
  General in the extents; stated over indices built from coordinates so that they apply by unification.  The proofs of
  the reductions' side conditions are variables, so that whatever proof a program's text carries unifies with them.
-/
import Idealize.ShloMosaic.Lib.ValueLayout
import Idealize.ShloMosaic.PureOps.Ideal.Laws

namespace Cert.Lib.ReduceLayout

open Idealize.ShloMosaic Idealize.ShloMosaic.ValueIdx

/-- A sum along the second axis, read at row `p`. -/
theorem sum_axis1_apply {a n : ℕ} (v : FVec Ideal ⟨2, ![a, n]⟩ .f32) (acc : BitVec 32)
    (h : (⟨2, ![a, n]⟩ : Shape).Reduces [1] ⟨1, ![a]⟩) (hφ : FKind.Formats .f32) (hacc : acc = FKind.add.neutral .f32 hφ)
    (p : Fin a) :
    multiReduction .add [1] ⟨1, ![a]⟩ v acc h hφ hacc (ix1 p) = ∑ k : Fin n, v (ix2 p k) := by
  refine (Ideal.multiReduction_add_single v acc h hφ hacc (ix1 p)).trans ?_
  refine Finset.sum_congr rfl fun k _ => congrArg v (funext fun d => ?_)
  match d with
  | ⟨0, _⟩ => rfl
  | ⟨1, _⟩ => rfl

/-- A sum along the first axis of a column, read at its one index. -/
theorem sum_axis0_col_apply {a : ℕ} (v : FVec Ideal ⟨2, ![a, 1]⟩ .f32) (acc : BitVec 32)
    (h : (⟨2, ![a, 1]⟩ : Shape).Reduces [0] ⟨1, ![1]⟩) (hφ : FKind.Formats .f32) (hacc : acc = FKind.add.neutral .f32 hφ)
    (y : (⟨1, ![1]⟩ : Shape).Idx) :
    multiReduction .add [0] ⟨1, ![1]⟩ v acc h hφ hacc y = ∑ p : Fin a, v (ix2 p (0 : Fin 1)) := by
  refine (Ideal.multiReduction_add_single v acc h hφ hacc y).trans ?_
  refine Finset.sum_congr rfl fun p _ => congrArg v (funext fun d => ?_)
  match d with
  | ⟨0, _⟩ => rfl
  | ⟨1, _⟩ =>
    have h1 : (h.lift y p (1 : Fin 2)).val < 1 := (h.lift y p (1 : Fin 2)).isLt
    exact Fin.ext (by show (h.lift y p (1 : Fin 2)).val = 0; omega)

variable {α : Type}

/-- A column turned into a row and repeated over `b` rows reads, at `(p, q)`, the column's entry in row `q`. -/
theorem broadcastTo_transpose_col_apply {a b : ℕ} (v : (⟨2, ![a, 1]⟩ : Shape).Idx → α)
    (ht : (⟨2, ![a, 1]⟩ : Shape).Transposes [1, 0] ⟨2, ![1, a]⟩) (hb : (⟨2, ![1, a]⟩ : Shape).Broadcasts ⟨2, ![b, a]⟩)
    (p : Fin b) (q : Fin a) :
    broadcastTo ⟨2, ![b, a]⟩ (transpose ⟨2, ![1, a]⟩ [1, 0] v ht) hb (ix2 p q) = v (ix2 q (0 : Fin 1)) :=
  (broadcastTo_1b_ab_apply _ hb p q).trans (transpose_ix2_apply v ht (0 : Fin 1) q)

end Cert.Lib.ReduceLayout
-- ==== Proof.LibMaxLayout.lean ====
/-
  The largest entry of a row, read at an index given by coordinates, over the extended reals: a maximum along the
  second axis of an `[a, n]` array, read at row `p`, is the fold of `max`, from the starting value, over the entries
  `(p, k)` of that row — for the vector unit's reduction (started from the value its accumulator word denotes) and for
  the host's one-operand reduction with a `max` body (started from its initial value's one element) alike.  Both are the
  library's single-axis readings with the inserted index named by its two coordinates.
  General in the extents; stated over indices built from coordinates so that they apply by unification.  The proofs of
  the reductions' side conditions are variables, so that whatever proof a program's text carries unifies with them.
-/
import Idealize.ShloMosaic.Lib.ValueIdx
import Idealize.ShloMosaic.PureOps.Ideal.Laws

namespace Cert.Lib.MaxLayout

open Idealize.ShloMosaic Idealize.ShloMosaic.ValueIdx

/-- The vector unit's maximum along the second axis, read at row `p`. -/
theorem max_axis1_apply {a n : ℕ} (v : FVec Ideal ⟨2, ![a, n]⟩ .f32) (acc : BitVec 32)
    (h : (⟨2, ![a, n]⟩ : Shape).Reduces [1] ⟨1, ![a]⟩) (hφ : FKind.Formats .f32) (hacc : acc = FKind.maximumf.neutral .f32 hφ)
    (p : Fin a) :
    multiReduction .maximumf [1] ⟨1, ![a]⟩ v acc h hφ hacc (ix1 p)
      = (Finset.univ : Finset (Fin n)).fold max (Ideal.ofBits .f32 acc) fun k => v (ix2 p k) := by
  refine (Ideal.multiReduction_maximumf_single v acc h hφ hacc (ix1 p)).trans ?_
  refine congrArg (fun f => (Finset.univ : Finset (Fin n)).fold max (Ideal.ofBits .f32 acc) f) (funext fun k => congrArg v (funext fun d => ?_))
  match d with
  | ⟨0, _⟩ => rfl
  | ⟨1, _⟩ => rfl

/-- The host's maximum along the second axis, read at row `p`: the fold starts from the initial value's element. -/
theorem hostMax_axis1_apply {a n : ℕ} {u : Shape} (x : (⟨2, ![a, n]⟩ : Shape).Idx → EReal) (init : u.Idx → EReal)
    (h' : (⟨2, ![a, n]⟩ : Shape).ReducesTo [1] ⟨1, ![a]⟩) (h : (⟨2, ![a, n]⟩ : Shape).Reduces [1] ⟨1, ![a]⟩)
    (hu : 0 < u.numel) (p : Fin a) :
    Host.reduce (FloatOps.maximumf (F := Ideal) (φ := .f32)) x init h' hu (ix1 p)
      = (Finset.univ : Finset (Fin n)).fold max (init (Shape.Idx.first hu)) fun k => x (ix2 p k) := by
  refine (Host.reduce_eq_fold_single (FloatOps.maximumf (F := Ideal) (φ := .f32)) x init h' h hu (ix1 p)).trans ?_
  refine congrArg (fun f => (Finset.univ : Finset (Fin n)).fold max (init (Shape.Idx.first hu)) f) (funext fun k => congrArg x (funext fun d => ?_))
  match d with
  | ⟨0, _⟩ => rfl
  | ⟨1, _⟩ => rfl

end Cert.Lib.MaxLayout
-- ==== Proof.KernelRow.lean ====
/-
  The kernel body's arithmetic at one row of its output block, on the extended reals.

  The body holds a query block `[1, 256, 512]`, the positive block `[1, 256, 1]` and the negative block `[1, 256, 2048]`.
  After the leading unit axis is dropped and the (identity) narrowing, two products contracted over the 256 channels
  give the positive scores `[512, 1]` and the negative scores `[512, 2048]`; both are scaled by the reciprocal
  temperature.  Per row: the shift is the larger of the positive score and the row's largest negative score, the sum of
  exponentials is the positive term plus the row sum over the negatives, and the entry written is
  `(shift + log sum) - positive score`.  Read at row `r` this is `rowLossShifted` of the row's scaled scores.

  The body is cut at its two score arrays: `KernelRow.posScores`, `KernelRow.negScores` (the products and the scaling) and `KernelRow.rowTail` (every
  later operation, as a function of the two score arrays); each is read at an index by one lemma per operation that is
  not pointwise.
-/
import proofs.«172922_j53163105190032_1_alg».proof.Proof.Gen.KernelIdeal.Skeleton
import proofs.«172922_j53163105190032_1_alg».proof.Proof.Spec
import proofs.«172922_j53163105190032_1_alg».proof.Proof.LibColumnLayout
import proofs.«172922_j53163105190032_1_alg».proof.Proof.LibReduceLayout
import proofs.«172922_j53163105190032_1_alg».proof.Proof.LibMaxLayout
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

namespace Cert.PatchNCE

open Idealize.ShloMosaic Idealize.ShloMosaic.ValueIdx Cert.KernelIdeal Cert.KernelIdeal.Gen

namespace KernelRow

/-! ## The two constants -/

/-- The named reciprocal temperature denotes the specification's `invT`. -/
theorem inv_temperature_eq :
    Named.named (F := Ideal) Cert.KernelIdeal.κ "inv_temperature" (φ := .f32) 0x41200000#32 = invT :=
  IdealRules.named_const.ideal_named_scalar _ _ _ _ rfl

/-- The word the row maximum starts from denotes minus infinity. -/
theorem neg_inf_word : Ideal.ofBits .f32 0xFF800000#32 = (⊥ : EReal) := by simp [Ideal.ofBits, Ideal.ieee]

/-! ## The two products at an index -/

/-! ### The positive product: `[256, 512]` against `[256, 1]` -/

theorem lhs_pos_0 (j : S512x1.Idx) (q : dot_S256x512_S256x1_S512x1_0_0_1_1_n_n.contr.Idx) :
    (dot_S256x512_S256x1_S512x1_0_0_1_1_n_n.lhsIdx j q 0).val = (q ⟨0, by decide⟩).val :=
  dot_S256x512_S256x1_S512x1_0_0_1_1_n_n.lhsIdx_val_of_single rfl j q
theorem lhs_pos_1 (j : S512x1.Idx) (q : dot_S256x512_S256x1_S512x1_0_0_1_1_n_n.contr.Idx) :
    (dot_S256x512_S256x1_S512x1_0_0_1_1_n_n.lhsIdx j q 1).val = (j 0).val := by
  unfold DotDims.lhsIdx
  rw [dif_neg (show ¬(1 : Fin S256x512.rank) ∈ dot_S256x512_S256x1_S512x1_0_0_1_1_n_n.lhsBatch by decide), dif_pos (show (1 : Fin S256x512.rank) ∈ dot_S256x512_S256x1_S512x1_0_0_1_1_n_n.lhsNonContracting by decide)]
  rfl
theorem rhs_pos_0 (j : S512x1.Idx) (q : dot_S256x512_S256x1_S512x1_0_0_1_1_n_n.contr.Idx) :
    (dot_S256x512_S256x1_S512x1_0_0_1_1_n_n.rhsIdx j q 0).val = (q ⟨0, by decide⟩).val :=
  dot_S256x512_S256x1_S512x1_0_0_1_1_n_n.rhsIdx_val_of_single rfl j q
theorem rhs_pos_1 (j : S512x1.Idx) (q : dot_S256x512_S256x1_S512x1_0_0_1_1_n_n.contr.Idx) :
    (dot_S256x512_S256x1_S512x1_0_0_1_1_n_n.rhsIdx j q 1).val = (j 1).val := by
  unfold DotDims.rhsIdx
  rw [dif_neg (show ¬(1 : Fin S256x1.rank) ∈ dot_S256x512_S256x1_S512x1_0_0_1_1_n_n.rhsBatch by decide), dif_pos (show (1 : Fin S256x1.rank) ∈ dot_S256x512_S256x1_S512x1_0_0_1_1_n_n.rhsNonContracting by decide)]
  rfl

/-- The product into a zero accumulator, read at row `r` and column `c`: both operands are contracted along their
    first axis, so the entry is the sum over the 256 channels of the left operand's column `r` times the right
    operand's column `c`. -/
theorem matmul_pos_apply (a : FVec Ideal S256x512 .bf16) (b : FVec Ideal S256x1 .bf16) (r : Fin 512) (c : Fin 1) :
    matmul (F := Ideal) dot_S256x512_S256x1_S512x1_0_0_1_1_n_n none a b (constant (F := Ideal) S512x1 .f32 0x00000000#32) (ix2 r c)
      = ∑ k : Fin 256, a (ix2 k r) * b (ix2 k c) := by
  refine (Ideal.matmul_constant_zero_apply dot_S256x512_S256x1_S512x1_0_0_1_1_n_n none a b (ix2 r c)).trans ?_
  rw [← Equiv.sum_comp (contrEquiv1 dot_S256x512_S256x1_S512x1_0_0_1_1_n_n 256 rfl rfl).symm]
  refine Finset.sum_congr rfl fun k _ => ?_
  have hk := contrEquiv1_symm_val dot_S256x512_S256x1_S512x1_0_0_1_1_n_n 256 rfl rfl k
  have el : dot_S256x512_S256x1_S512x1_0_0_1_1_n_n.lhsIdx (ix2 r c) ((contrEquiv1 dot_S256x512_S256x1_S512x1_0_0_1_1_n_n 256 rfl rfl).symm k) = ix2 k r := funext fun d => Fin.ext (by
    match d with
    | ⟨0, _⟩ => exact (lhs_pos_0 _ _).trans hk
    | ⟨1, _⟩ => exact lhs_pos_1 _ _)
  have er : dot_S256x512_S256x1_S512x1_0_0_1_1_n_n.rhsIdx (ix2 r c) ((contrEquiv1 dot_S256x512_S256x1_S512x1_0_0_1_1_n_n 256 rfl rfl).symm k) = ix2 k c := funext fun d => Fin.ext (by
    match d with
    | ⟨0, _⟩ => exact (rhs_pos_0 _ _).trans hk
    | ⟨1, _⟩ => exact rhs_pos_1 _ _)
  rw [el, er]

/-! ### The negative product: `[256, 512]` against `[256, 2048]` -/

theorem lhs_neg_0 (j : S512x2048.Idx) (q : dot_S256x512_S256x2048_S512x2048_0_0_1_1_n_n.contr.Idx) :
    (dot_S256x512_S256x2048_S512x2048_0_0_1_1_n_n.lhsIdx j q 0).val = (q ⟨0, by decide⟩).val :=
  dot_S256x512_S256x2048_S512x2048_0_0_1_1_n_n.lhsIdx_val_of_single rfl j q
theorem lhs_neg_1 (j : S512x2048.Idx) (q : dot_S256x512_S256x2048_S512x2048_0_0_1_1_n_n.contr.Idx) :
    (dot_S256x512_S256x2048_S512x2048_0_0_1_1_n_n.lhsIdx j q 1).val = (j 0).val := by
  unfold DotDims.lhsIdx
  rw [dif_neg (show ¬(1 : Fin S256x512.rank) ∈ dot_S256x512_S256x2048_S512x2048_0_0_1_1_n_n.lhsBatch by decide), dif_pos (show (1 : Fin S256x512.rank) ∈ dot_S256x512_S256x2048_S512x2048_0_0_1_1_n_n.lhsNonContracting by decide)]
  rfl
theorem rhs_neg_0 (j : S512x2048.Idx) (q : dot_S256x512_S256x2048_S512x2048_0_0_1_1_n_n.contr.Idx) :
    (dot_S256x512_S256x2048_S512x2048_0_0_1_1_n_n.rhsIdx j q 0).val = (q ⟨0, by decide⟩).val :=
  dot_S256x512_S256x2048_S512x2048_0_0_1_1_n_n.rhsIdx_val_of_single rfl j q
theorem rhs_neg_1 (j : S512x2048.Idx) (q : dot_S256x512_S256x2048_S512x2048_0_0_1_1_n_n.contr.Idx) :
    (dot_S256x512_S256x2048_S512x2048_0_0_1_1_n_n.rhsIdx j q 1).val = (j 1).val := by
  unfold DotDims.rhsIdx
  rw [dif_neg (show ¬(1 : Fin S256x2048.rank) ∈ dot_S256x512_S256x2048_S512x2048_0_0_1_1_n_n.rhsBatch by decide), dif_pos (show (1 : Fin S256x2048.rank) ∈ dot_S256x512_S256x2048_S512x2048_0_0_1_1_n_n.rhsNonContracting by decide)]
  rfl

/-- The product into a zero accumulator, read at row `r` and column `c`: both operands are contracted along their
    first axis, so the entry is the sum over the 256 channels of the left operand's column `r` times the right
    operand's column `c`. -/
theorem matmul_neg_apply (a : FVec Ideal S256x512 .bf16) (b : FVec Ideal S256x2048 .bf16) (r : Fin 512) (c : Fin 2048) :
    matmul (F := Ideal) dot_S256x512_S256x2048_S512x2048_0_0_1_1_n_n none a b (constant (F := Ideal) S512x2048 .f32 0x00000000#32) (ix2 r c)
      = ∑ k : Fin 256, a (ix2 k r) * b (ix2 k c) := by
  refine (Ideal.matmul_constant_zero_apply dot_S256x512_S256x2048_S512x2048_0_0_1_1_n_n none a b (ix2 r c)).trans ?_
  rw [← Equiv.sum_comp (contrEquiv1 dot_S256x512_S256x2048_S512x2048_0_0_1_1_n_n 256 rfl rfl).symm]
  refine Finset.sum_congr rfl fun k _ => ?_
  have hk := contrEquiv1_symm_val dot_S256x512_S256x2048_S512x2048_0_0_1_1_n_n 256 rfl rfl k
  have el : dot_S256x512_S256x2048_S512x2048_0_0_1_1_n_n.lhsIdx (ix2 r c) ((contrEquiv1 dot_S256x512_S256x2048_S512x2048_0_0_1_1_n_n 256 rfl rfl).symm k) = ix2 k r := funext fun d => Fin.ext (by
    match d with
    | ⟨0, _⟩ => exact (lhs_neg_0 _ _).trans hk
    | ⟨1, _⟩ => exact lhs_neg_1 _ _)
  have er : dot_S256x512_S256x2048_S512x2048_0_0_1_1_n_n.rhsIdx (ix2 r c) ((contrEquiv1 dot_S256x512_S256x2048_S512x2048_0_0_1_1_n_n 256 rfl rfl).symm k) = ix2 k c := funext fun d => Fin.ext (by
    match d with
    | ⟨0, _⟩ => exact (rhs_neg_0 _ _).trans hk
    | ⟨1, _⟩ => exact rhs_neg_1 _ _)
  rw [el, er]

/-! ## The body, cut at the two score arrays -/

/-- The scaled positive scores, as the body computes them. -/
def posScores (x0 : Vec Ideal S1x256x512 .f32) (x1 : Vec Ideal S1x256x1 .f32) : FVec Ideal S512x1 .f32 :=
  mulf
    (matmul dot_S256x512_S256x1_S512x1_0_0_1_1_n_n none
      (truncf .bf16 (shapeCast S256x512 x0 shapeCasts_S1x256x512_S256x512 : FVec Ideal S256x512 .f32) bitsLt_bf16_f32)
      (truncf .bf16 (shapeCast S256x1 x1 shapeCasts_S1x256x1_S256x1 : FVec Ideal S256x1 .f32) bitsLt_bf16_f32)
      (constant S512x1 .f32 0x00000000#32))
    (broadcast S512x1 (Named.named κ "inv_temperature" 0x41200000#32))

/-- The scaled negative scores, as the body computes them. -/
def negScores (x0 : Vec Ideal S1x256x512 .f32) (x2 : Vec Ideal S1x256x2048 .f32) : FVec Ideal S512x2048 .f32 :=
  mulf
    (matmul dot_S256x512_S256x2048_S512x2048_0_0_1_1_n_n none
      (truncf .bf16 (shapeCast S256x512 x0 shapeCasts_S1x256x512_S256x512 : FVec Ideal S256x512 .f32) bitsLt_bf16_f32)
      (truncf .bf16 (shapeCast S256x2048 x2 shapeCasts_S1x256x2048_S256x2048 : FVec Ideal S256x2048 .f32) bitsLt_bf16_f32)
      (constant S512x2048 .f32 0x00000000#32))
    (broadcast S512x2048 (Named.named κ "inv_temperature" 0x41200000#32))

/-- The column of row maxima of a `[512, 2048]` array, started from minus infinity. -/
def rowMaxCol (N : FVec Ideal S512x2048 .f32) : FVec Ideal S512x1 .f32 :=
  shapeCast S512x1 (multiReduction .maximumf [1] S512 N 0xFF800000#32 reduces_S512x2048_S512 (.inl rfl) rfl : FVec Ideal S512 .f32)
    shapeCasts_S512_S512x1

/-- The column of row sums of a `[512, 2048]` array. -/
def rowSumCol (E : FVec Ideal S512x2048 .f32) : FVec Ideal S512x1 .f32 :=
  shapeCast S512x1 (multiReduction .add [1] S512 E 0x00000000#32 reduces_S512x2048_S512 (.inl rfl) rfl : FVec Ideal S512 .f32)
    shapeCasts_S512_S512x1

/-- The column of shifts: the larger of the positive score and the row's largest negative score. -/
def shiftCol (p : FVec Ideal S512x1 .f32) (N : FVec Ideal S512x2048 .f32) : FVec Ideal S512x1 .f32 :=
  maximumf p (rowMaxCol N)

/-- Every operation after the two score arrays. -/
def rowTail (p : FVec Ideal S512x1 .f32) (N : FVec Ideal S512x2048 .f32) : FVec Ideal S1x512x1 .f32 :=
  shapeCast S1x512x1
    (subf
      (addf (shiftCol p N)
        (log (addf (exp (subf p (shiftCol p N)))
          (rowSumCol (exp (subf N (broadcastTo S512x2048 (shiftCol p N) broadcasts_S512x1_S512x2048)))))))
      p)
    shapeCasts_S512x1_S1x512x1

/-- The body is the tail applied to its two score arrays: the same operations in the same order. -/
theorem payload_eq_rowTail (x0 : Vec Ideal S1x256x512 .f32) (x1 : Vec Ideal S1x256x1 .f32) (x2 : Vec Ideal S1x256x2048 .f32) :
    k0_pay1 (F := Ideal) x0 x1 x2 = rowTail (posScores x0 x1) (negScores x0 x2) := rfl

/-! ## Each part at an index -/

theorem posScores_apply (x0 : Vec Ideal S1x256x512 .f32) (x1 : Vec Ideal S1x256x1 .f32) (r : Fin 512) (u : Fin 1) :
    posScores x0 x1 (ix2 r u)
      = (∑ k : Fin 256, x0 (ix3 (0 : Fin 1) k r) * x1 (ix3 (0 : Fin 1) k u)) * invT := by
  unfold posScores
  rw [mulf_apply, broadcast_apply, inv_temperature_eq, matmul_pos_apply]
  refine congrArg (· * invT) (Finset.sum_congr rfl fun k _ => ?_)
  rw [truncf_apply, truncf_apply, shapeCast_1ab_ab_apply, shapeCast_1ab_ab_apply]

theorem negScores_apply (x0 : Vec Ideal S1x256x512 .f32) (x2 : Vec Ideal S1x256x2048 .f32) (r : Fin 512) (n : Fin 2048) :
    negScores x0 x2 (ix2 r n)
      = (∑ k : Fin 256, x0 (ix3 (0 : Fin 1) k r) * x2 (ix3 (0 : Fin 1) k n)) * invT := by
  unfold negScores
  rw [mulf_apply, broadcast_apply, inv_temperature_eq, matmul_neg_apply]
  refine congrArg (· * invT) (Finset.sum_congr rfl fun k _ => ?_)
  rw [truncf_apply, truncf_apply, shapeCast_1ab_ab_apply, shapeCast_1ab_ab_apply]

theorem rowMaxCol_apply (N : FVec Ideal S512x2048 .f32) (r : Fin 512) (u : Fin 1) :
    rowMaxCol N (ix2 r u) = (Finset.univ : Finset (Fin 2048)).fold max ⊥ fun n => N (ix2 r n) := by
  unfold rowMaxCol
  refine (Cert.Lib.ColumnLayout.shapeCast_a_a1_apply _ _ r u).trans ?_
  refine (Cert.Lib.MaxLayout.max_axis1_apply N _ _ _ _ r).trans ?_
  rw [neg_inf_word]

theorem rowSumCol_apply (E : FVec Ideal S512x2048 .f32) (r : Fin 512) (u : Fin 1) :
    rowSumCol E (ix2 r u) = ∑ n : Fin 2048, E (ix2 r n) := by
  unfold rowSumCol
  refine (Cert.Lib.ColumnLayout.shapeCast_a_a1_apply _ _ r u).trans ?_
  exact Cert.Lib.ReduceLayout.sum_axis1_apply E _ _ _ _ r

theorem shiftCol_apply (p : FVec Ideal S512x1 .f32) (N : FVec Ideal S512x2048 .f32) (r : Fin 512) (u : Fin 1) :
    shiftCol p N (ix2 r u) = max (p (ix2 r u)) ((Finset.univ : Finset (Fin 2048)).fold max ⊥ fun n => N (ix2 r n)) := by
  unfold shiftCol
  rw [maximumf_apply, rowMaxCol_apply]

/-- The exponential of an array, read at an index. -/
theorem exp_at {s : Shape} (a : FVec Ideal s .f32) (i : s.Idx) : exp a i = Ideal.exp (a i) := rfl

/-- The logarithm of an array, read at an index. -/
theorem log_at {s : Shape} (a : FVec Ideal s .f32) (i : s.Idx) : log a i = Ideal.log (a i) := rfl

/-- The tail at row `r` is the row's loss in the shifted form, of the row's two kinds of scores. -/
theorem rowTail_apply (p : FVec Ideal S512x1 .f32) (N : FVec Ideal S512x2048 .f32) (r : Fin 512) :
    rowTail p N (ix3 (0 : Fin 1) r (0 : Fin 1)) = rowLossShifted (p (ix2 r (0 : Fin 1))) (fun n : Fin 2048 => N (ix2 r n)) := by
  unfold rowTail rowLossShifted
  refine (shapeCast_ab_1ab_apply _ _ (0 : Fin 1) r (0 : Fin 1)).trans ?_
  simp only [subf_apply, addf_apply, log_at, exp_at, rowSumCol_apply, Cert.Lib.ColumnLayout.broadcastTo_a1_ab_apply,
    shiftCol_apply]

end KernelRow

open KernelRow

/-- The kernel body's output block at row `r`: the row's loss in the shifted form, of the scaled inner products of the
    query column `r` with the positive column and with each negative column. -/
theorem payload_row (x0 : Vec Ideal S1x256x512 .f32) (x1 : Vec Ideal S1x256x1 .f32) (x2 : Vec Ideal S1x256x2048 .f32) (r : Fin 512) :
    k0_pay1 (F := Ideal) x0 x1 x2 (ix3 (0 : Fin 1) r (0 : Fin 1))
      = rowLossShifted ((∑ k : Fin 256, x0 (ix3 (0 : Fin 1) k r) * x1 (ix3 (0 : Fin 1) k (0 : Fin 1))) * invT)
          (fun n : Fin 2048 => (∑ k : Fin 256, x0 (ix3 (0 : Fin 1) k r) * x2 (ix3 (0 : Fin 1) k n)) * invT) := by
  rw [payload_eq_rowTail, rowTail_apply, posScores_apply]
  simp only [negScores_apply]

end Cert.PatchNCE

end
-- ==== Proof.KernelArray.lean ====
/-
  The kernel's output array after its one region, as a function of the argument arrays.

  The grid has 16 × 4 points: point (b, t) works on batch `b` and on the 512 query positions from `512 t`.  Its query block is
  channels × those 512 positions of batch `b`, its positive and negative blocks are all of batch `b`, and it writes rows
  `512 t … 512 t + 511` of batch `b` of the [16, 2048, 1] output.  Row `r` of what it writes is the row loss of batch `b`,
  position `512 t + r` (the body's arithmetic at one row, read off the blocks).  The 64 output blocks tile the output array,
  so after the region the array holds the row loss at every (b, q, 0).
-/
import proofs.«172922_j53163105190032_1_alg».proof.Proof.Gen.KernelIdeal.Frame
import proofs.«172922_j53163105190032_1_alg».proof.Proof.Spec
import proofs.«172922_j53163105190032_1_alg».proof.Proof.KernelRow
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.PatchNCE.KernelSide

open Cert.KernelIdeal Cert.KernelIdeal.Gen Cert.PatchNCE

variable (m : (ℓ : Loc nD τ sig) → Buf (Elt Ideal) ℓ) (ρ : Dev nD → PrngReg)

theorem hz3 : (![0, 0, 0] : Fin 3 → Nat) = fun _ => 0 := funext fun a => by fin_cases a <;> rfl

/-- The array of the rows' losses: entry `(b, q, 0)` is the loss of batch `b`, query position `q`. -/
def lossArr (Q : SQ.Idx → EReal) (P : SP.Idx → EReal) (N : SQ.Idx → EReal) : (⟨3, ![16, 2048, 1]⟩ : Shape).Idx → EReal :=
  fun i => rowLossShifted (sPos Q P ⟨(i 0).val, (i 0).isLt⟩ ⟨(i 1).val, (i 1).isLt⟩)
    (sNeg Q N ⟨(i 0).val, (i 0).isLt⟩ ⟨(i 1).val, (i 1).isLt⟩)

theorem lossArr_apply (Q : SQ.Idx → EReal) (P : SP.Idx → EReal) (N : SQ.Idx → EReal) (i : (⟨3, ![16, 2048, 1]⟩ : Shape).Idx)
    (b : Fin 16) (q : Fin 2048) (hb : (i 0).val = b.val) (hq : (i 1).val = q.val) :
    lossArr Q P N i = rowLossShifted (sPos Q P b q) (sNeg Q N b q) := by
  have eb : (⟨(i 0).val, (i 0).isLt⟩ : Fin 16) = b := Fin.ext hb
  have eq : (⟨(i 1).val, (i 1).isLt⟩ : Fin 2048) = q := Fin.ext hq
  unfold lossArr
  rw [eb, eq]

/-- The printed index maps over the 64 grid points: the query block follows the output block (batch, position tile), the
    positive and negative blocks follow its batch only, and the output's block indices stay in range. -/
theorem idx_facts : ∀ t : Fin cfg0.N,
    win0_0.index t (0 : Fin 3) = win0_3.index t (0 : Fin 3) ∧ win0_0.index t (1 : Fin 3) = 0 ∧ win0_0.index t (2 : Fin 3) = win0_3.index t (1 : Fin 3)
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (0 : Fin 3) ≤ 15 ∧ win0_3.index t (1 : Fin 3) ≤ 3 ∧ win0_3.index t (2 : Fin 3) = 0 :=
  (by decide +kernel : ∀ t : Fin grid0.N, _)

/-- Every (batch, position tile) pair is some grid point's output block. -/
theorem idx_onto : ∀ (q0 : Fin 16) (q1 : Fin 4), ∃ t : Fin cfg0.N, win0_3.index t = ![q0.val, q1.val, 0] :=
  (by decide +kernel : ∀ (q0 : Fin 16) (q1 : Fin 4), ∃ t : Fin grid0.N, win0_3.index t = ![q0.val, q1.val, 0])

/-- One row of a point's output block, from blocks that hold the arrays' entries: the query block the 512 positions from
    `q0` of batch `b`, the positive and negative blocks all of batch `b`. -/
theorem block_value (Q : SQ.Idx → EReal) (P : SP.Idx → EReal) (N : SQ.Idx → EReal)
    (x0 : Vec Ideal S1x256x512 .f32) (x1 : Vec Ideal S1x256x1 .f32) (x2 : Vec Ideal S1x256x2048 .f32)
    (b : Fin 16) (q0 : ℕ) (hq0 : q0 + 512 ≤ 2048)
    (h0 : ∀ (k : Fin 256) (r : Fin 512), x0 (ix3 (0 : Fin 1) k r) = Q (ix3 b k (⟨q0 + r.val, by have := r.isLt; omega⟩ : Fin 2048)))
    (h1 : ∀ k : Fin 256, x1 (ix3 (0 : Fin 1) k (0 : Fin 1)) = P (ix3 b k (0 : Fin 1)))
    (h2 : ∀ (k : Fin 256) (n : Fin 2048), x2 (ix3 (0 : Fin 1) k n) = N (ix3 b k n))
    (j : S1x512x1.Idx) (i : (⟨3, ![16, 2048, 1]⟩ : Shape).Idx) (hi0 : (i 0).val = b.val) (hi1 : (i 1).val = q0 + (j 1).val) :
    k0_pay1 (F := Ideal) x0 x1 x2 j = lossArr Q P N i := by
  have hj1 : (j 1).val < 512 := (j 1).isLt
  have hj : j = ix3 (0 : Fin 1) (⟨(j 1).val, hj1⟩ : Fin 512) (0 : Fin 1) := by
    funext a
    match a with
    | ⟨0, _⟩ => exact Fin.ext (by have : (j 0).val < 1 := (j 0).isLt; show (j 0).val = 0; omega)
    | ⟨1, _⟩ => rfl
    | ⟨2, _⟩ => exact Fin.ext (by have : (j 2).val < 1 := (j 2).isLt; show (j 2).val = 0; omega)
  rw [lossArr_apply Q P N i b (⟨q0 + (j 1).val, by omega⟩ : Fin 2048) hi0 hi1,
    congrArg (k0_pay1 (F := Ideal) x0 x1 x2) hj, payload_row]
  simp only [h0, h1, h2, sPos, posDot]
  rfl

/-- WHAT POINT `t` WRITES BACK is block `t` of the array of row losses of the argument arrays. -/
theorem flushed_eq (c : Dev nD) (t : Fin cfg0.N) :
    (dats m 0 c).flushed 3 t = ((cfg0.win 3).blk t).view.read (Elt Ideal) (lossArr (V m c main_arg0) (V m c main_arg1) (V m c main_arg2)) := by
  show (cfg0.win 3).cut (grid0.coords t) ((dats m 0 c).after 3 t) = _
  rw [after0_3]
  unfold out0_3
  rw [View.canon_unit_zero hz3]
  simp only [View.ld_unit_zero (S := S1x256x512) hz3, View.ld_unit_zero (S := S1x256x1) hz3, View.ld_unit_zero (S := S1x256x2048) hz3]
  obtain ⟨e00, e01, e02, e10, e11, e12, e20, e21, e22, b0, b1, e32⟩ := idx_facts t
  funext j
  show k0_pay1 (F := Ideal) (iblk m c 0 t) (iblk m c 1 t) (iblk m c 2 t) j = lossArr (V m c main_arg0) (V m c main_arg1) (V m c main_arg2) (((cfg0.win 3).blk t).view.emb j)
  refine block_value (V m c main_arg0) (V m c main_arg1) (V m c main_arg2) (iblk m c 0 t) (iblk m c 1 t) (iblk m c 2 t)
    (⟨win0_3.index t (0 : Fin 3), by omega⟩ : Fin 16) (win0_3.index t (1 : Fin 3) * 512) (by omega) ?_ ?_ ?_ j _ ?_ ?_
  · intro k r
    show V m c main_arg0 (((cfg0.win 0).blk t).view.emb (ix3 (0 : Fin 1) k r)) = V m c main_arg0 _
    have e : ((cfg0.win 0).blk t).view.emb (ix3 (0 : Fin 1) k r) = ix3 (⟨win0_3.index t (0 : Fin 3), by omega⟩ : Fin 16) k (⟨win0_3.index t (1 : Fin 3) * 512 + r.val, by have := r.isLt; omega⟩ : Fin 2048) := by
      funext a; apply Fin.ext
      match a with
      | ⟨0, _⟩ => show win0_0.index t (0 : Fin 3) * 1 + 1 * 0 = win0_3.index t (0 : Fin 3); omega
      | ⟨1, _⟩ => show win0_0.index t (1 : Fin 3) * 256 + 1 * k.val = k.val; omega
      | ⟨2, _⟩ => show win0_0.index t (2 : Fin 3) * 512 + 1 * r.val = win0_3.index t (1 : Fin 3) * 512 + r.val; omega
    rw [e]
  · intro k
    show V m c main_arg1 (((cfg0.win 1).blk t).view.emb (ix3 (0 : Fin 1) k (0 : Fin 1))) = V m c main_arg1 _
    have e : ((cfg0.win 1).blk t).view.emb (ix3 (0 : Fin 1) k (0 : Fin 1)) = ix3 (⟨win0_3.index t (0 : Fin 3), by omega⟩ : Fin 16) k (0 : Fin 1) := by
      funext a; apply Fin.ext
      match a with
      | ⟨0, _⟩ => show win0_1.index t (0 : Fin 3) * 1 + 1 * 0 = win0_3.index t (0 : Fin 3); omega
      | ⟨1, _⟩ => show win0_1.index t (1 : Fin 3) * 256 + 1 * k.val = k.val; omega
      | ⟨2, _⟩ => show win0_1.index t (2 : Fin 3) * 1 + 1 * 0 = 0; omega
    rw [e]
  · intro k n
    show V m c main_arg2 (((cfg0.win 2).blk t).view.emb (ix3 (0 : Fin 1) k n)) = V m c main_arg2 _
    have e : ((cfg0.win 2).blk t).view.emb (ix3 (0 : Fin 1) k n) = ix3 (⟨win0_3.index t (0 : Fin 3), by omega⟩ : Fin 16) k n := by
      funext a; apply Fin.ext
      match a with
      | ⟨0, _⟩ => show win0_2.index t (0 : Fin 3) * 1 + 1 * 0 = win0_3.index t (0 : Fin 3); omega
      | ⟨1, _⟩ => show win0_2.index t (1 : Fin 3) * 256 + 1 * k.val = k.val; omega
      | ⟨2, _⟩ => show win0_2.index t (2 : Fin 3) * 2048 + 1 * n.val = n.val; omega
    rw [e]
  · show win0_3.index t (0 : Fin 3) * 1 + 1 * (j 0).val = win0_3.index t (0 : Fin 3)
    have : (j 0).val < 1 := (j 0).isLt
    omega
  · show win0_3.index t (1 : Fin 3) * 512 + 1 * (j 1).val = win0_3.index t (1 : Fin 3) * 512 + (j 1).val
    omega

/-- An index of the output array is in point `t`'s block iff each coordinate is in the block's range on its axis. -/
theorem mem_blk (t : Fin cfg0.N) (i : S16x2048x1.Idx) :
    i ∈ ((cfg0.win 3).blk t).view.set ↔ ∀ a : Fin 3, win0_3.index t a * S1x512x1.size a ≤ (i a).val ∧ (i a).val < win0_3.index t a * S1x512x1.size a + S1x512x1.size a := by
  show i ∈ ((View.whole main_v0).slice (win0_3.rect t)).set ↔ _
  rw [View.set_slice_whole, Rect.mem_set_unit]
  exact Iff.rfl

/-- Every index of the output array is in some point's block: the point of its batch and position tile. -/
theorem cover (i : S16x2048x1.Idx) : ∃ t : Fin cfg0.N, (cfg0.win 3).flush t = true ∧ i ∈ ((cfg0.win 3).blk t).view.set := by
  have hi0 : (i 0).val < 16 := (i 0).isLt
  have hi1 : (i 1).val < 2048 := (i 1).isLt
  have hi2 : (i 2).val < 1 := (i 2).isLt
  obtain ⟨t, ht⟩ := idx_onto ⟨(i 0).val, hi0⟩ ⟨(i 1).val / 512, by omega⟩
  have q0 : win0_3.index t (0 : Fin 3) = (i 0).val := congrFun ht 0
  have q1 : win0_3.index t (1 : Fin 3) = (i 1).val / 512 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 1 ≤ (i 2).val ∧ (i 2).val < win0_3.index t (2 : Fin 3) * 1 + 1; omega

/-- THE OUTPUT ARRAY after the region: the array of row losses of the argument arrays. -/
theorem final (c : Dev nD) :
    (dats m 0 c).arrAt 3 cfg0.N = lossArr (m ((c : Thread nD τ).loc main_arg0)) (m ((c : Thread nD τ).loc main_arg1)) (m ((c : Thread nD τ).loc main_arg2)) :=
  (dats m 0 c).arrAt_eq_of_cover 3 (lossArr (V m c main_arg0) (V m c main_arg1) (V m c main_arg2)) (fun t _ => flushed_eq m c t) cover

/-! ## The lines after the region: the mean -/

/-- The mean of an array of row losses as the program takes it: the sum of all entries from the zero word, divided by the
    word of 32768. -/
def meanLoss (A : S16x2048x1.Idx → EReal) : S_.Idx → EReal :=
  Host.divf (F := Ideal)
    (Host.reduceAdd (F := Ideal) A (constant (F := Ideal) S_ .f32 0x00000000#32) reducesTo_S16x2048x1_S_d0_1_2 h_S_)
    (constant (F := Ideal) S_ .f32 0x47000000#32)

/-- What the lines after the region leave in the program's result buffer: the mean of the region's output array. -/
theorem tail_value (c : Dev nD) :
    Pipeline.afterTail₀ cfgs (dats m) 0 (V0 m) [hostOps1] c main_v2
      = meanLoss (lossArr (m ((c : Thread nD τ).loc main_arg0)) (m ((c : Thread nD τ).loc main_arg1)) (m ((c : Thread nD τ).loc main_arg2))) := by
  unfold Pipeline.afterTail₀
  show StableHlo.after hostOps1 _ (Proc.devRef .tc main_v2) = _
  after_results
  exact congrArg meanLoss ((Pipeline.withArrays_arr spec0 launch0.win.arr_inj c _ _ 3).trans (final m c))

/-- The kernel program's run, read: its result is the mean of the row losses of the argument arrays, which end unchanged. -/
theorem run : θ_run defs (onTc (τ := τ) (main (F := Ideal))) ⟨m, fun _ => 0, ρ⟩ (fun r => ∀ c : Dev nD,
      r.2.mem ((c.tc : Thread nD τ).loc main_v2)
        = meanLoss (lossArr (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h c).2 main_v2 (by decide)).trans (tail_value m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.PatchNCE.KernelSide

end
-- ==== Proof.RefRow.lean ====
/-
  The reference program's loss of one row.

  For a batch `b` and a query position `q` the reference forms the row of 2049 scores — the inner product of the query
  column with the positive column first, then its inner products with the 2048 negative columns, each divided by the
  temperature — and takes the negated first entry of the row's log-softmax: the row is shifted by its largest entry (the
  maximum is started from minus infinity, and once more compared with minus infinity), the exponentials of the shifted
  row are summed from zero, and the logarithm of that sum is subtracted from the shifted first entry.

  Read one operation at a time this is exactly `rowLossLogSoftmax` of `scoreRow` of the scaled scores:
    * the joined array's column 0 is the positive inner product and its column `j ≥ 1` the negative inner product
      against position `j - 1`;
    * the temperature word denotes 13421773 / 134217728, and dividing by a nonzero real is multiplying by its
      reciprocal at every extended real, so each score is the inner product times `invT`;
    * a maximum along the last axis of a rank-3 array, read at `(b, q)`, is the fold of `max` over the entries
      `(b, q, k)` from the initial value, which here is the word of minus infinity.
  No finiteness is needed: every step is an identity of extended reals.
-/
import proofs.«172922_j53163105190032_1_alg».proof.Proof.RefRead
import proofs.«172922_j53163105190032_1_alg».proof.Proof.Spec

noncomputable section

namespace Cert.PatchNCE

open Idealize.ShloMosaic Idealize.ShloMosaic.ValueIdx Cert.ReferenceIdeal Cert.ReferenceIdeal.Read

namespace RefRow

/-! ## A maximum along the last axis of a rank-3 array -/

/-- The host's maximum along the third axis, read at `(p, r)`: the fold of `max` over the entries `(p, r, k)`, started
    from the initial value's one element. -/
theorem hostMax_axis2_apply {a m n : ℕ} {u : Shape} (x : (⟨3, ![a, m, n]⟩ : Shape).Idx → EReal) (init : u.Idx → EReal)
    (h' : (⟨3, ![a, m, n]⟩ : Shape).ReducesTo [2] ⟨2, ![a, m]⟩) (h : (⟨3, ![a, m, n]⟩ : Shape).Reduces [2] ⟨2, ![a, m]⟩)
    (hu : 0 < u.numel) (p : Fin a) (r : Fin m) :
    Host.reduce (FloatOps.maximumf (F := Ideal) (φ := .f32)) x init h' hu (ix2 p r)
      = (Finset.univ : Finset (Fin n)).fold max (init (Shape.Idx.first hu)) fun k => x (ix3 p r k) := by
  refine (Host.reduce_eq_fold_single (FloatOps.maximumf (F := Ideal) (φ := .f32)) x init h' h hu (ix2 p r)).trans ?_
  refine congrArg (fun f => (Finset.univ : Finset (Fin n)).fold max (init (Shape.Idx.first hu)) f) (funext fun k => congrArg x (funext fun d => ?_))
  match d with
  | ⟨0, _⟩ => rfl
  | ⟨1, _⟩ => rfl
  | ⟨2, _⟩ => rfl

/-! ## The three literal words -/

/-- The word of the maximum's starting value denotes minus infinity. -/
theorem word_negInf : Ideal.ofBits .f32 0xFF800000#32 = ⊥ := by
  simp [Ideal.ofBits, Ideal.ieee]

/-- The temperature word: sign 0, exponent 123, significand 2^23 + 5033165 = 13421773, so 13421773 · 2^(123 - 127 - 23). -/
theorem word_temperature : Ideal.ofBits .f32 0x3DCCCCCD#32 = ((13421773 / 134217728 : ℝ) : EReal) := by
  simp [Ideal.ofBits, Ideal.ieee, -EReal.coe_mul]; norm_num

/-- Dividing by the temperature word is multiplying by the reciprocal of the temperature, at every extended real. -/
theorem div_temperature (x : EReal) : Ideal.div x (Ideal.ofBits .f32 0x3DCCCCCD#32) = x * invT := by
  rw [word_temperature, Ideal.div_coe (by norm_num)]
  have e : (1 / (13421773 / 134217728) : ℝ) = 134217728 / 13421773 := by norm_num
  rw [e]
  rfl

/-! ## The composed index functions at an index given by coordinates -/

section Indices
variable (b : Fin 16) (q : Fin 2048)

theorem idx_v7_at : idx_main_v7 (ix2 b q) = ix3 b q (0 : Fin 1) :=
  funext fun a => Fin.ext (by
    have hb : b.val < 16 := b.isLt
    have hq : q.val < 2048 := q.isLt
    match a with
    | ⟨0, _⟩ => show (b.val * 2048 + q.val) / 2048 = b.val; omega
    | ⟨1, _⟩ => show (b.val * 2048 + q.val) / 1 % 2048 = q.val; omega
    | ⟨2, _⟩ => rfl)

theorem idx_v6_at : idx_main_v6 (ix3 b q (0 : Fin 1)) = ix3 b q (0 : Fin 2049) :=
  funext fun a => Fin.ext (by match a with | ⟨0, _⟩ => rfl | ⟨1, _⟩ => rfl | ⟨2, _⟩ => rfl)

theorem idx_call0_v4_at (j : Fin 2049) : idx_main_call0_v4 (ix3 b q j) = ix3 b q (0 : Fin 1) :=
  funext fun a => Fin.ext (by match a with | ⟨0, _⟩ => rfl | ⟨1, _⟩ => rfl | ⟨2, _⟩ => rfl)

theorem idx_call0_v3_at : idx_main_call0_v3 (ix3 b q (0 : Fin 1)) = ix2 b q :=
  funext fun a => Fin.ext (by match a with | ⟨0, _⟩ => rfl | ⟨1, _⟩ => rfl)

theorem idx_call0_v10_at (j : Fin 2049) : idx_main_call0_v10 (ix3 b q j) = ix3 b q (0 : Fin 1) :=
  funext fun a => Fin.ext (by match a with | ⟨0, _⟩ => rfl | ⟨1, _⟩ => rfl | ⟨2, _⟩ => rfl)

theorem idx_call0_v8_at : idx_main_call0_v8 (ix3 b q (0 : Fin 1)) = ix2 b q :=
  funext fun a => Fin.ext (by match a with | ⟨0, _⟩ => rfl | ⟨1, _⟩ => rfl)

theorem idx_call0_v7_at (k : Fin 2049) : idx_main_call0_v7 (ix2 b q) k = ix3 b q k :=
  funext fun a => Fin.ext (by match a with | ⟨0, _⟩ => rfl | ⟨1, _⟩ => rfl | ⟨2, _⟩ => rfl)

theorem lidx_v0_at (k : Fin 256) : lidx_main_v0 (ix3 b q (0 : Fin 1)) k = ix3 b k q :=
  funext fun a => Fin.ext (by match a with | ⟨0, _⟩ => rfl | ⟨1, _⟩ => rfl | ⟨2, _⟩ => rfl)

theorem ridx_v0_at (k : Fin 256) : ridx_main_v0 (ix3 b q (0 : Fin 1)) k = ix3 b k (0 : Fin 1) :=
  funext fun a => Fin.ext (by match a with | ⟨0, _⟩ => rfl | ⟨1, _⟩ => rfl | ⟨2, _⟩ => rfl)

theorem lidx_v1_at (n : Fin 2048) (k : Fin 256) : lidx_main_v1 (ix3 b q n) k = ix3 b k q :=
  funext fun a => Fin.ext (by match a with | ⟨0, _⟩ => rfl | ⟨1, _⟩ => rfl | ⟨2, _⟩ => rfl)

theorem ridx_v1_at (n : Fin 2048) (k : Fin 256) : ridx_main_v1 (ix3 b q n) k = ix3 b k n :=
  funext fun a => Fin.ext (by match a with | ⟨0, _⟩ => rfl | ⟨1, _⟩ => rfl | ⟨2, _⟩ => rfl)

end Indices

/-! ## The row of scores -/

section Scores
variable (Q : SQ.Idx → EReal) (P : SP.Idx → EReal) (N : SQ.Idx → EReal) (b : Fin 16) (q : Fin 2048)

/-- The first inner product array at `(b, q, 0)` is the positive inner product. -/
theorem posDot_at : val_main_v0 (F := Ideal) Q P (ix3 b q (0 : Fin 1)) = posDot Q P b q := by
  rw [val_main_v0_apply]
  unfold posDot
  refine Finset.sum_congr rfl fun k _ => ?_
  rw [lidx_v0_at, ridx_v0_at]

/-- The second inner product array at `(b, q, n)` is the negative inner product against position `n`. -/
theorem negDot_at (n : Fin 2048) : val_main_v1 (F := Ideal) Q N (ix3 b q n) = negDot Q N b q n := by
  rw [val_main_v1_apply]
  unfold negDot
  refine Finset.sum_congr rfl fun k _ => ?_
  rw [lidx_v1_at, ridx_v1_at]

/-- Column 0 of the joined array comes from the first piece, at its one column. -/
theorem concat_first (j : Fin 2049) (hj : j.val = 0) :
    val_main_v2 (F := Ideal) Q P N (ix3 b q j) = val_main_v0 (F := Ideal) Q P (ix3 b q (0 : Fin 1)) := by
  unfold val_main_v2
  generalize val_main_v0 (F := Ideal) Q P = y0
  generalize val_main_v1 (F := Ideal) Q N = y1
  exact concatenate_pair_apply_left (t := S16x2048x2049) 2 y0 y1 _ (ix3 b q j) rfl (ix3 b q (0 : Fin 1)) (fun d => by
    match d with
    | ⟨0, _⟩ => rfl
    | ⟨1, _⟩ => rfl
    | ⟨2, _⟩ => exact hj.symm)

/-- Column `j ≥ 1` of the joined array comes from the second piece, at column `j - 1`. -/
theorem concat_rest (j : Fin 2049) (hj : ¬ j.val = 0) :
    val_main_v2 (F := Ideal) Q P N (ix3 b q j)
      = val_main_v1 (F := Ideal) Q N (ix3 b q (⟨j.val - 1, by have := j.isLt; omega⟩ : Fin 2048)) := by
  unfold val_main_v2
  generalize val_main_v0 (F := Ideal) Q P = y0
  generalize val_main_v1 (F := Ideal) Q N = y1
  exact concatenate_pair_apply_right (t := S16x2048x2049) 2 y0 y1 _ (ix3 b q j) rfl rfl
    (ix3 b q (⟨j.val - 1, by have := j.isLt; omega⟩ : Fin 2048))
    (fun d hd => by
      match d with
      | ⟨0, _⟩ => rfl
      | ⟨1, _⟩ => rfl
      | ⟨2, _⟩ => exact absurd rfl hd)
    (by show j.val - 1 + 1 = j.val; omega)

/-- The scaled array at `(b, q, j)` is the row of scores of the specification. -/
theorem scores_at (j : Fin 2049) :
    val_main_v4 (F := Ideal) Q P N (ix3 b q j) = scoreRow (sPos Q P b q) (sNeg Q N b q) j := by
  rw [val_main_v4_apply, Ideal.hostDivf_def, val_main_v3_apply, val_main_cst_apply, Ideal.ofBits_def, div_temperature]
  unfold scoreRow
  by_cases hj : j.val = 0
  · rw [dif_pos hj, concat_first Q P N b q j hj, posDot_at]
    rfl
  · rw [dif_neg hj, concat_rest Q P N b q j hj, negDot_at]
    rfl

end Scores

/-! ## The log-softmax of the row, one operation at a time -/

section LogSoftmax
variable (Q : SQ.Idx → EReal) (P : SP.Idx → EReal) (N : SQ.Idx → EReal) (b : Fin 16) (q : Fin 2048)

/-- The shift, read anywhere in the row: the larger of minus infinity and the row's maximum started from minus infinity. -/
theorem shift_at (j : Fin 2049) :
    val_main_call0_v4 (F := Ideal) Q P N (ix3 b q j)
      = max ⊥ ((Finset.univ : Finset (Fin 2049)).fold max ⊥ fun k => val_main_v4 (F := Ideal) Q P N (ix3 b q k)) := by
  rw [val_main_call0_v4_apply, idx_call0_v4_at, val_main_call0_v3_apply, idx_call0_v3_at, val_main_call0_v2_apply,
    val_main_call0_v1_apply, val_main_call0_cst_0_apply, Ideal.maximumf_def, Ideal.ofBits_def, word_negInf]
  refine congrArg (max ⊥) ?_
  unfold val_main_call0_v0
  generalize val_main_v4 (F := Ideal) Q P N = X
  refine (hostMax_axis2_apply X _ _ (by decide) _ b q).trans ?_
  rw [val_main_call0_cst_apply, Ideal.ofBits_def, word_negInf]

/-- The shifted row. -/
theorem shifted_at (j : Fin 2049) :
    val_main_call0_v5 (F := Ideal) Q P N (ix3 b q j)
      = val_main_v4 (F := Ideal) Q P N (ix3 b q j)
        - max ⊥ ((Finset.univ : Finset (Fin 2049)).fold max ⊥ fun k => val_main_v4 (F := Ideal) Q P N (ix3 b q k)) := by
  rw [val_main_call0_v5_apply, Ideal.subf_def, shift_at]

/-- The sum of the exponentials of the shifted row, started from zero. -/
theorem sumExp_at :
    val_main_call0_v7 (F := Ideal) Q P N (ix2 b q)
      = 0 + ∑ k : Fin 2049, Ideal.exp (val_main_v4 (F := Ideal) Q P N (ix3 b q k)
          - max ⊥ ((Finset.univ : Finset (Fin 2049)).fold max ⊥ fun k => val_main_v4 (F := Ideal) Q P N (ix3 b q k))) := by
  rw [val_main_call0_v7_apply, val_main_call0_cst_1_apply, Ideal.ofBits_def, Ideal.ofBits_zero_f32]
  refine congrArg (0 + ·) (Finset.sum_congr rfl fun k _ => ?_)
  rw [idx_call0_v7_at, val_main_call0_v6_apply, Ideal.hostUnary_exp_def, shifted_at]

/-- The logarithm of that sum, read anywhere in the row. -/
theorem logSum_at (j : Fin 2049) :
    val_main_call0_v10 (F := Ideal) Q P N (ix3 b q j)
      = Ideal.log (0 + ∑ k : Fin 2049, Ideal.exp (val_main_v4 (F := Ideal) Q P N (ix3 b q k)
          - max ⊥ ((Finset.univ : Finset (Fin 2049)).fold max ⊥ fun k => val_main_v4 (F := Ideal) Q P N (ix3 b q k)))) := by
  rw [val_main_call0_v10_apply, idx_call0_v10_at, val_main_call0_v9_apply, Ideal.hostUnary_log_def, val_main_call0_v8_apply,
    idx_call0_v8_at, sumExp_at]

/-- The reference's value at `(b, q)` is the row's loss of the scaled array's row `(b, q, ·)`. -/
theorem row_of_scaled :
    val_main_v8 (F := Ideal) Q P N (ix2 b q)
      = rowLossLogSoftmax fun j => val_main_v4 (F := Ideal) Q P N (ix3 b q j) := by
  rw [val_main_v8_apply, Ideal.hostNegf_def, Ideal.negf_def, val_main_v7_apply, idx_v7_at, val_main_v6_apply, idx_v6_at,
    val_main_v5_apply, Ideal.subf_def, shifted_at, logSum_at]
  rfl

end LogSoftmax

end RefRow

/-- The reference's value at `(b, q)`: the loss of the row of scaled scores, in the log-softmax form. -/
theorem ref_row (Q : SQ.Idx → EReal) (P : SP.Idx → EReal) (N : SQ.Idx → EReal) (b : Fin 16) (q : Fin 2048) :
    val_main_v8 (F := Ideal) Q P N (ix2 b q) = rowLossLogSoftmax (scoreRow (sPos Q P b q) (sNeg Q N b q)) := by
  rw [RefRow.row_of_scaled]
  exact congrArg rowLossLogSoftmax (funext fun j => RefRow.scores_at Q P N b q j)

end Cert.PatchNCE

end
-- ==== Proof.LibFinite.lean ====
/-
  Finite entries: which operations keep every entry a real number.

  An extended real is finite when it is the image of a real number.  Sums, products, differences, maxima and finite sums
  of finite values are finite; the exponential of a finite value is a positive real, a finite sum of positive reals over a
  non-empty index set is a positive real, the logarithm of a positive real is finite, and a quotient of a finite value by
  a positive real is finite.  For whole arrays: an array read at computed indices (a broadcast, a gather), a pointwise
  combination, a matrix product and an accumulating scatter of arrays with finite entries all have finite entries.
  Last, the identity that needs finiteness: for finite `x`, `m`, `l`, `x - (l + m) = (x - m) - l`.
-/
import Idealize.ShloMosaic.PureOps.Ideal.Laws
import Idealize.ShloMosaic.PureOps.Contract
import Idealize.ShloMosaic.PureOps.Vector

noncomputable section

namespace Cert.Fin

open Idealize.ShloMosaic

/-- The value is a real number. -/
def IsReal (a : EReal) : Prop := ∃ r : ℝ, a = (r : EReal)

/-- The value is a positive real number. -/
def IsPos (a : EReal) : Prop := ∃ r : ℝ, 0 < r ∧ a = (r : EReal)

theorem IsPos.isReal {a : EReal} (h : IsPos a) : IsReal a := let ⟨r, _, e⟩ := h; ⟨r, e⟩

theorem isReal_of_ne {a : EReal} (ht : a ≠ ⊤) (hb : a ≠ ⊥) : IsReal a := ⟨a.toReal, (EReal.coe_toReal ht hb).symm⟩

theorem IsReal.ne_top {a : EReal} (h : IsReal a) : a ≠ ⊤ := by obtain ⟨r, rfl⟩ := h; exact EReal.coe_ne_top r
theorem IsReal.ne_bot {a : EReal} (h : IsReal a) : a ≠ ⊥ := by obtain ⟨r, rfl⟩ := h; exact EReal.coe_ne_bot r

theorem isReal_zero : IsReal 0 := ⟨0, EReal.coe_zero.symm⟩
theorem isReal_coe (r : ℝ) : IsReal (r : EReal) := ⟨r, rfl⟩

theorem IsReal.add {a b : EReal} (ha : IsReal a) (hb : IsReal b) : IsReal (a + b) := by
  obtain ⟨r, rfl⟩ := ha; obtain ⟨s, rfl⟩ := hb; exact ⟨r + s, (EReal.coe_add r s).symm⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

theorem IsReal.sub {a b : EReal} (ha : IsReal a) (hb : IsReal b) : IsReal (a - b) := by
  obtain ⟨r, rfl⟩ := ha; obtain ⟨s, rfl⟩ := hb; exact ⟨r - s, (EReal.coe_sub r s).symm⟩

theorem IsReal.neg {a : EReal} (ha : IsReal a) : IsReal (-a) := by
  obtain ⟨r, rfl⟩ := ha; exact ⟨-r, (EReal.coe_neg r).symm⟩

theorem IsReal.max {a b : EReal} (ha : IsReal a) (hb : IsReal b) : IsReal (max a b) := by
  rcases max_cases a b with ⟨e, _⟩ | ⟨e, _⟩ <;> rw [e] <;> assumption

theorem isReal_sum {ι : Type} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

theorem IsPos.add {a b : EReal} (ha : IsPos a) (hb : IsPos b) : IsPos (a + b) := by
  obtain ⟨r, hr, rfl⟩ := ha; obtain ⟨s, hs, rfl⟩ := hb; exact ⟨r + s, add_pos hr hs, (EReal.coe_add r s).symm⟩

/-- A sum of positive reals over `Fin (n + 1)` is a positive real. -/
theorem isPos_sum_fin : ∀ (n : ℕ) (f : Fin (n + 1) → EReal), (∀ i, IsPos (f i)) → IsPos (∑ i, f i)
  | 0, f, h => by rw [Fin.sum_univ_one]; exact h 0
  | n + 1, f, h => by
    rw [Fin.sum_univ_succ]
    exact (h 0).add (isPos_sum_fin n (fun i => f i.succ) fun i => h i.succ)

theorem isPos_exp {a : EReal} (ha : IsReal a) : IsPos (Ideal.exp a) := by
  obtain ⟨r, rfl⟩ := ha; exact ⟨Real.exp r, Real.exp_pos r, rfl⟩

theorem isReal_log {a : EReal} (ha : IsPos a) : IsReal (Ideal.log a) := by
  obtain ⟨r, hr, rfl⟩ := ha
  refine ⟨Real.log r, ?_⟩
  rw [Ideal.log_coe, if_neg (not_le.mpr hr)]

theorem isReal_div {a b : EReal} (ha : IsReal a) (hb : IsPos b) : IsReal (Ideal.div a b) := by
  obtain ⟨s, hs, rfl⟩ := hb
  rw [Ideal.div_coe (ne_of_gt hs)]
  exact ha.mul (isReal_coe _)

/-- For finite `x`, `m`, `l`: `x - (l + m) = (x - m) - l`. -/
theorem sub_add_eq_sub_sub_swap {x m l : EReal} (hx : IsReal x) (hm : IsReal m) (hl : IsReal l) : x - (l + m) = (x - m) - l := by
  obtain ⟨a, rfl⟩ := hx; obtain ⟨b, rfl⟩ := hm; obtain ⟨c, rfl⟩ := hl
  rw [← EReal.coe_add, ← EReal.coe_sub, ← EReal.coe_sub, ← EReal.coe_sub]
  exact congrArg _ (by ring)

/-- The largest of finitely many finite values, folded from minus infinity over a non-empty index set, is finite. -/
theorem isReal_fold_max (n : ℕ) (f : Fin (n + 1) → EReal) (h : ∀ i, IsReal (f i)) :
    IsReal ((Finset.univ : Finset (Fin (n + 1))).fold max ⊥ f) := by
  refine isReal_of_ne (ne_of_lt ?_) (ne_of_gt ?_)
  · rw [Finset.fold_max_lt]
    exact ⟨bot_lt_top, fun i _ => lt_top_iff_ne_top.mpr (h i).ne_top⟩
  · rw [Finset.lt_fold_max]
    exact Or.inr ⟨0, Finset.mem_univ _, bot_lt_iff_ne_bot.mpr (h 0).ne_bot⟩

/-! ## Whole arrays -/

/-- Every entry of the array is a real number. -/
def AllReal {s : Shape} (v : s.Idx → EReal) : Prop := ∀ i, IsReal (v i)

variable {s t u si : Shape}

/-- An array read at computed indices. -/
theorem AllReal.comp {v : s.Idx → EReal} (h : AllReal v) (g : t.Idx → s.Idx) : AllReal fun j => v (g j) := fun j => h (g j)

theorem allReal_broadcastInDim (dims : Fin s.rank → Fin t.rank) (hb : s.BroadcastsInDim t dims) {v : s.Idx → EReal} (h : AllReal v) :
    AllReal (broadcastInDim t dims hb v) := fun j => h _

theorem allReal_gather {w : ℕ} (d : GatherDims s si t) {v : s.Idx → EReal} (h : AllReal v) (idx : IVec si w) :
    AllReal (Host.gather d v idx) := fun j => h _

theorem allReal_mulf {a b : FVec Ideal s .f32} (ha : AllReal a) (hb : AllReal b) : AllReal (mulf a b) := fun i => (ha i).mul (hb i)
theorem allReal_addf {a b : FVec Ideal s .f32} (ha : AllReal a) (hb : AllReal b) : AllReal (addf a b) := fun i => (ha i).add (hb i)
theorem allReal_maximumf {a b : FVec Ideal s .f32} (ha : AllReal a) (hb : AllReal b) : AllReal (maximumf a b) := fun i => (ha i).max (hb i)

theorem allReal_dotGeneral {sl sr so : Shape} (d : DotDims sl sr so) (prec : Option ContractPrecision)
    {x : FVec Ideal sl .f32} {w : FVec Ideal sr .f32} (hx : AllReal x) (hw : AllReal w) :
    AllReal (Host.dotGeneral (F := Ideal) d prec x w) := fun j => by
  show IsReal (FloatOps.dotGeneral d prec .single x w j)
  rw [Ideal.dotGeneral_apply]
  exact isReal_sum _ _ fun k _ => (hx _).mul (hw _)

theorem allReal_scatterAdd {w : ℕ} (d : ScatterDims s si u) {x : FVec Ideal s .f32} {upd : FVec Ideal u .f32} (idx : IVec si w)
    (hx : AllReal x) (hu : AllReal upd) : AllReal (Host.scatterAdd (F := Ideal) d x idx upd) := fun i => by
  show IsReal (Ideal.hostScatterAdd d x idx upd i)
  unfold Ideal.hostScatterAdd
  exact (hx i).add (isReal_sum _ _ fun j _ => hu j)

end Cert.Fin

end
-- ==== Proof.RowLaw.lean ====
/-
  The law of one row of the patch loss, and the finiteness of its scores.

  One row of the loss has a positive score `s₊` and 2048 negative scores `s₁ … s₂₀₄₈`.  Written with a shift, the loss
  is `(m + log l) - s₊`, where `m` is the larger of `s₊` and the largest negative score and `l` is
  `exp (s₊ - m)` plus the sum of the `exp (sₙ - m)`.  Written as a log-softmax, the 2049 scores are one row
  `x` with `x 0 = s₊` and `x (n + 1) = sₙ`; the loss is `-((x 0 - m') - log l')`, with `m'` the largest entry of
  the row and `l'` the sum of the `exp (x j - m')`.

  The two agree when every score is a real number.  The largest entry of a row indexed by `0, 1, …, n` is the larger of
  its first entry and the largest of the others, so `m' = m`; a sum over `0, 1, …, n` is the first term plus the sum
  of the others, so `l' = l`.  Then `m` is real (a maximum of finitely many reals over a non-empty set), every
  exponential is a positive real, so `l` is a positive real and `log l` is real, and for real numbers
  `(m + L) - s = -((s - m) - L)`.  The identity fails at infinite scores (both sides contain `∞ - ∞` in different
  places), which is why finiteness is assumed.

  The scores themselves are finite sums of products of real entries, times a real constant, hence real.

  Last, a sum over the index set of an array with extents 16, 2048 and 1 is the double sum over the first two
  coordinates: the third coordinate can only be 0.
-/
import proofs.«172922_j53163105190032_1_alg».proof.Proof.Spec
import proofs.«172922_j53163105190032_1_alg».proof.Proof.LibFinite

noncomputable section

open scoped BigOperators

namespace Cert.PatchNCE

open Idealize.ShloMosaic Idealize.ShloMosaic.ValueIdx Cert.Fin

/-! ## The largest entry and the sum of a row split at its first entry -/

/-- The largest entry of a row indexed by `0, …, n`, starting from minus infinity, is the larger of the first entry and
    the largest of the remaining ones. -/
theorem fold_max_univ_succ (n : ℕ) (f : Fin (n + 1) → EReal) :
    (Finset.univ : Finset (Fin (n + 1))).fold max ⊥ f
      = max (f 0) ((Finset.univ : Finset (Fin n)).fold max ⊥ fun i => f i.succ) := by
  rw [Fin.univ_succ, Finset.fold_cons, Finset.fold_map]
  rfl

/-- The first entry of the row of scores is the positive score. -/
theorem scoreRow_zero (sp : EReal) (sn : Fin 2048 → EReal) : scoreRow sp sn 0 = sp := by
  unfold scoreRow
  exact dif_pos rfl

/-- The entry after position `n` of the row of scores is the `n`-th negative score. -/
theorem scoreRow_succ (sp : EReal) (sn : Fin 2048 → EReal) (n : Fin 2048) : scoreRow sp sn n.succ = sn n := by
  unfold scoreRow
  rw [dif_neg (by simp)]
  exact congrArg sn (Fin.ext (by simp))

/-- The largest of all 2049 scores is the larger of the positive score and the largest negative score. -/
theorem fold_max_scoreRow (sp : EReal) (sn : Fin 2048 → EReal) :
    (Finset.univ : Finset (Fin 2049)).fold max ⊥ (scoreRow sp sn)
      = max sp ((Finset.univ : Finset (Fin 2048)).fold max ⊥ sn) := by
  have h := fold_max_univ_succ 2048 (scoreRow sp sn)
  rw [show (fun i : Fin 2048 => scoreRow sp sn i.succ) = sn from funext (scoreRow_succ sp sn)] at h
  rw [scoreRow_zero] at h
  exact h

/-- The sum of the shifted exponentials of all 2049 scores is the positive term plus the sum over the negatives. -/
theorem sum_exp_scoreRow (sp : EReal) (sn : Fin 2048 → EReal) (m : EReal) :
    ∑ j : Fin 2049, Ideal.exp (scoreRow sp sn j - m)
      = Ideal.exp (sp - m) + ∑ n : Fin 2048, Ideal.exp (sn n - m) := by
  have h := Fin.sum_univ_succ (n := 2048) fun j => Ideal.exp (scoreRow sp sn j - m)
  rw [show (fun i : Fin 2048 => Ideal.exp (scoreRow sp sn i.succ - m)) = fun i => Ideal.exp (sn i - m) from
    funext fun i => by rw [scoreRow_succ]] at h
  rw [scoreRow_zero] at h
  exact h

/-- For real numbers `s`, `m`, `L`: `(m + L) - s = -((s - m) - L)`. -/
theorem add_sub_eq_neg_sub_sub {s m L : EReal} (hs : IsReal s) (hm : IsReal m) (hL : IsReal L) :
    (m + L) - s = -((s - m) - L) := by
  obtain ⟨a, rfl⟩ := hs; obtain ⟨b, rfl⟩ := hm; obtain ⟨c, rfl⟩ := hL
  rw [← EReal.coe_add, ← EReal.coe_sub, ← EReal.coe_sub, ← EReal.coe_sub, ← EReal.coe_neg]
  exact congrArg _ (by ring)

/-! ## The row law -/

/-- With real scores, the loss written with a shift is the loss written as the negated first entry of the log-softmax of
    the row of scores. -/
theorem rowLoss_eq (sp : EReal) (sn : Fin 2048 → EReal) (hsp : IsReal sp) (hsn : ∀ n, IsReal (sn n)) :
    rowLossShifted sp sn = rowLossLogSoftmax (scoreRow sp sn) := by
  unfold rowLossShifted rowLossLogSoftmax
  rw [fold_max_scoreRow, max_bot_left, sum_exp_scoreRow, zero_add, scoreRow_zero]
  have hm : IsReal (max sp ((Finset.univ : Finset (Fin 2048)).fold max ⊥ sn)) :=
    hsp.max (isReal_fold_max 2047 sn hsn)
  have hl : IsPos (Ideal.exp (sp - max sp ((Finset.univ : Finset (Fin 2048)).fold max ⊥ sn))
      + ∑ n : Fin 2048, Ideal.exp (sn n - max sp ((Finset.univ : Finset (Fin 2048)).fold max ⊥ sn))) :=
    (isPos_exp (hsp.sub hm)).add (isPos_sum_fin 2047 _ fun n => isPos_exp ((hsn n).sub hm))
  exact add_sub_eq_neg_sub_sub hsp hm (isReal_log hl)

/-! ## The scores are real -/

/-- The scaled positive score of real arrays is real. -/
theorem isReal_sPos (Q : SQ.Idx → EReal) (P : SP.Idx → EReal) (hQ : AllReal Q) (hP : AllReal P) (b : Fin 16) (q : Fin 2048) :
    IsReal (sPos Q P b q) := by
  unfold sPos posDot invT
  exact (isReal_sum _ _ fun k _ => (hQ _).mul (hP _)).mul (isReal_coe _)

/-- Every scaled negative score of real arrays is real. -/
theorem isReal_sNeg (Q N : SQ.Idx → EReal) (hQ : AllReal Q) (hN : AllReal N) (b : Fin 16) (q n : Fin 2048) :
    IsReal (sNeg Q N b q n) := by
  show IsReal (negDot Q N b q n * invT)
  unfold negDot invT
  exact (isReal_sum _ _ fun k _ => (hQ _).mul (hN _)).mul (isReal_coe _)

/-! ## A sum over an index set whose last extent is one -/

/-- The index set of an array with extents 16, 2048 and 1 is the product of the first two coordinate ranges: the last
    coordinate is always 0. -/
def idxEquivCol : (⟨3, ![16, 2048, 1]⟩ : Shape).Idx ≃ Fin 16 × Fin 2048 where
  toFun i := (i 0, i 1)
  invFun p := ix3 p.1 p.2 (0 : Fin 1)
  left_inv i := by
    funext a
    match a with
    | ⟨0, _⟩ => rfl
    | ⟨1, _⟩ => rfl
    | ⟨2, h⟩ => exact (Fin.eq_zero (i ⟨2, h⟩ : Fin 1)).symm
  right_inv _ := rfl

/-- A sum over that index set is the double sum over the first two coordinates. -/
theorem sum_idx3_col (f : (⟨3, ![16, 2048, 1]⟩ : Shape).Idx → EReal) :
    ∑ j : (⟨3, ![16, 2048, 1]⟩ : Shape).Idx, f j = ∑ b : Fin 16, ∑ q : Fin 2048, f (ix3 b q (0 : Fin 1)) := by
  rw [← Equiv.sum_comp idxEquivCol.symm f, Fintype.sum_prod_type]
  rfl

end Cert.PatchNCE

end
-- ==== Proof.Bridge.lean ====
/-
  The two programs' results are one number.

  Each program ends with the mean of 16 × 2048 row losses: the sum of all entries of an array from the zero word, divided by
  the word of 32768.  The kernel program's array has shape [16, 2048, 1] and holds the row loss with the shift taken as the
  larger of the positive score and the largest negative score; the reference's has shape [16, 2048] and holds the negated
  first entry of the log-softmax of the row of scores.  Summed over batch and position the two are the same double sum, and
  for real scores — which the scores of arrays with real entries are — the two row losses are equal.
-/
import proofs.«172922_j53163105190032_1_alg».proof.Proof.KernelArray
import proofs.«172922_j53163105190032_1_alg».proof.Proof.RefRow
import proofs.«172922_j53163105190032_1_alg».proof.Proof.RowLaw

noncomputable section

namespace Cert.PatchNCE

open Idealize.ShloMosaic Idealize.ShloMosaic.ValueIdx Cert.Fin

/-- The kernel program's mean at its one index: the zero word plus the sum of all row losses, over the word of 32768. -/
theorem meanLoss_apply (A : Cert.KernelIdeal.S16x2048x1.Idx → EReal) (i : Cert.KernelIdeal.S_.Idx) :
    KernelSide.meanLoss A i
      = Ideal.div (Ideal.ofBits .f32 0x00000000#32 + ∑ j : (⟨3, ![16, 2048, 1]⟩ : Shape).Idx, A j) (Ideal.ofBits .f32 0x47000000#32) := by
  unfold KernelSide.meanLoss
  show FloatOps.hostDivf (Host.reduceAdd (F := Ideal) A _ _ _ i) _ = _
  simp only [Host.reduceAdd, Ideal.hostReduceAdd_def]
  rw [Ideal.hostReduceAdd_total _ (fun b => b.elim0) A _ i]
  rfl

/-- The reference's result is the kernel program's, when every entry of the three arrays is a real number. -/
theorem mean_eq (Q : SQ.Idx → EReal) (P : SP.Idx → EReal) (N : SQ.Idx → EReal) (hQ : AllReal Q) (hP : AllReal P) (hN : AllReal N) :
    Cert.ReferenceIdeal.Read.val_main_v10 (F := Ideal) Q P N = KernelSide.meanLoss (KernelSide.lossArr Q P N) := by
  funext i
  rw [Cert.ReferenceIdeal.Read.val_main_v10_apply, Cert.ReferenceIdeal.Read.val_main_v9_apply, meanLoss_apply]
  have hs : ∑ j : Cert.ReferenceIdeal.S16x2048.Idx, Cert.ReferenceIdeal.Read.val_main_v8 (F := Ideal) Q P N j
      = ∑ j : (⟨3, ![16, 2048, 1]⟩ : Shape).Idx, KernelSide.lossArr Q P N j := by
    rw [sum_idx2, sum_idx3_col]
    refine Finset.sum_congr rfl fun b _ => Finset.sum_congr rfl fun q _ => ?_
    rw [ref_row, KernelSide.lossArr_apply Q P N _ b q rfl rfl]
    exact (rowLoss_eq _ _ (isReal_sPos Q P hQ hP b q) (fun n => isReal_sNeg Q N hQ hN b q n)).symm
  rw [hs]
  rfl

end Cert.PatchNCE

end
-- ==== Proof.LibFiniteConjunct.lean ====
/-
  One conjunct of a "every floating-point input is finite" precondition, read.

  Such a precondition is a conjunction of `jnp.all (|x| < +inf)`, one per array: a reduce-by-and, into a result of one
  index, of the comparison of each entry's absolute value against the word of plus infinity.  If the conjunct is `1`
  then every entry's absolute value `max a (-a)` is below plus infinity, so the entry is neither infinity: a real number.
  General in the array's shape and in the reduced axes.
-/
import proofs.«172922_j53163105190032_1_alg».proof.Proof.LibFinite
import Idealize.ShloMosaic.Lib.ReduceAll
import Idealize.ShloMosaic.Lib.ValueIdx

noncomputable section

namespace Cert.Lib.FiniteConjunct

open Idealize.ShloMosaic Cert.Fin

instance : Subsingleton (⟨0, ![]⟩ : Shape).Idx := ⟨fun a b => funext fun d => d.elim0⟩

/-- The word `0x7F800000` is plus infinity. -/
theorem wInf_eq : Ideal.ofBits .f32 0x7F800000#32 = ⊤ := by simp [Ideal.ofBits, Ideal.ieee]

/-- An extended real whose absolute value compares below plus infinity is a real number. -/
theorem isReal_of_abs_lt_inf (a : EReal)
    (h : Ideal.cmp .olt (max a (-a)) (Ideal.ofBits .f32 0x7F800000#32) = 1#1) : IsReal a := by
  rw [wInf_eq] at h
  have hlt : max a (-a) < ⊤ := by
    by_contra hc
    have : Ideal.cmp .olt (max a (-a)) ⊤ = 0#1 := by
      unfold Ideal.cmp
      simp [hc]
    rw [this] at h
    exact absurd h (by decide)
  refine isReal_of_ne (fun e => ?_) (fun e => ?_)
  · rw [e] at hlt; simp at hlt
  · rw [e] at hlt; simp at hlt

/-- One conjunct: "every entry's absolute value is below plus infinity" makes every entry real. -/
theorem allReal_of_all {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (e : Host.reduce IntOp.andi (cmpf .olt (Host.absf x) (broadcastInDim s ![] hb (constant (F := Ideal) ⟨0, ![]⟩ .f32 0x7F800000#32)))
      (constantI ⟨0, ![]⟩ 1 1#1) hr hu ValueIdx.ix0 = 1#1) : AllReal x := fun i =>
  isReal_of_abs_lt_inf (x i) (Host.reduce_andi_all _ _ hr hu ValueIdx.ix0 e i)

end Cert.Lib.FiniteConjunct

end
-- ==== Proof.Finite.lean ====
/-
  From the precondition to real entries.

  The precondition is the conjunction, over the three argument arrays, of "every entry's absolute value is below plus
  infinity".  If it evaluates to one then each of the three conjuncts does, and each conjunct makes every entry of its array
  a real number.
-/
import proofs.«172922_j53163105190032_1_alg».proof.Proof.LibFiniteConjunct
import proofs.«172922_j53163105190032_1_alg».proof.Pre_finite_inputs
import Idealize.ShloMosaic.Lib.Affine

noncomputable section

namespace Cert.PatchNCE

open Idealize.ShloMosaic Cert.Fin Cert.Lib.FiniteConjunct

/-- Under the precondition every entry of the query, positive and negative arrays is a real number. -/
theorem allReal_of_finite_inputs [Cert.Pre_finite_inputs.Facts]
    (Q : FVec Ideal Cert.Pre_finite_inputs.S16x256x2048 .f32) (P : FVec Ideal Cert.Pre_finite_inputs.S16x256x1 .f32)
    (N : FVec Ideal Cert.Pre_finite_inputs.S16x256x2048 .f32)
    (h : Cert.Pre_finite_inputs.fn (F := Ideal) Q P N = fun _ => 1#1) : AllReal Q ∧ AllReal P ∧ AllReal N := by
  have h0 := congrFun h ValueIdx.ix0
  dsimp only [Cert.Pre_finite_inputs.fn] at h0
  obtain ⟨hqp, hn⟩ := IntOp.andi_eq_one.mp h0
  obtain ⟨hq, hp⟩ := IntOp.andi_eq_one.mp hqp
  exact ⟨allReal_of_all Q _ _ _ hq, allReal_of_all P _ _ _ hp, allReal_of_all N _ _ _ hn⟩

end Cert.PatchNCE

end
-- ==== Proof.lean ====
/-
  The InfoNCE patch loss: a tiled kernel against its array-language reference, equal as extended reals.

  Both programs take query features [16, 256, 2048], one positive feature column [16, 256, 1] and negative features
  [16, 256, 2048].  For batch b and query position q the scores are the inner products over the 256 channels of the query
  column (b, ·, q) with the positive column and with each of the 2048 negative columns, scaled by the reciprocal of the
  temperature; the row's loss is the log-sum-exp of its 2049 scores minus the positive score, and the result is the mean of
  the 16 × 2048 row losses.

  The kernel works on a 16 × 4 grid, 512 query positions of one batch per point, and multiplies the scores by a constant; the
  constant is named: it denotes the reciprocal of the number the reference's temperature word denotes, so that at exact
  arithmetic the kernel's product and the reference's quotient are one operation.  The kernel shifts by the larger of the
  positive score and the largest negative score and writes (m + log l) − s₊; the reference concatenates the 2049 scores,
  takes the log-softmax of the row, and negates its first entry.  For real scores the two are equal; for infinite ones they
  need not be, which is where the precondition — every input entry finite — is used.  The mean is the same sum over batch and
  position on both sides.

  The parts: the row losses as functions on the extended reals (Spec), their equality for real scores and the reindexing of
  the sum (RowLaw), the kernel body's arithmetic at one row of a block (KernelRow), the kernel's output array and the
  program's result (KernelArray), the reference's row read one operation at a time (RefRead, RefRow), the reference's run
  (RefRun), the two results as one number (Bridge), and the real entries from the precondition (Finite).
-/
import proofs.«172922_j53163105190032_1_alg».proof.Defs
import proofs.«172922_j53163105190032_1_alg».proof.Proof.Gen.Kernel
import proofs.«172922_j53163105190032_1_alg».proof.Proof.Gen.Kernel.Skeleton
import proofs.«172922_j53163105190032_1_alg».proof.Proof.Gen.Kernel.Launch
import proofs.«172922_j53163105190032_1_alg».proof.Proof.Gen.Kernel.Points
import proofs.«172922_j53163105190032_1_alg».proof.Proof.Gen.Kernel.Frame
import proofs.«172922_j53163105190032_1_alg».proof.Proof.Gen.KernelIdeal
import proofs.«172922_j53163105190032_1_alg».proof.Proof.Gen.KernelIdeal.Skeleton
import proofs.«172922_j53163105190032_1_alg».proof.Proof.Gen.KernelIdeal.Launch
import proofs.«172922_j53163105190032_1_alg».proof.Proof.Gen.KernelIdeal.Points
import proofs.«172922_j53163105190032_1_alg».proof.Proof.Gen.KernelIdeal.Frame
import proofs.«172922_j53163105190032_1_alg».proof.Proof.Gen.ReferenceIdeal
import proofs.«172922_j53163105190032_1_alg».proof.Proof.Gen.Pre_finite_inputs
import proofs.«172922_j53163105190032_1_alg».proof.Proof.RefRun
import proofs.«172922_j53163105190032_1_alg».proof.Proof.Bridge
import proofs.«172922_j53163105190032_1_alg».proof.Proof.Finite
import Idealize.ShloMosaic.Adequacy
import Idealize.ShloMosaic.Init

noncomputable section

namespace Cert.Proof

open Idealize.ShloMosaic Idealize.SL.Sem Cert.PatchNCE

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The two scaling constants of the kernel body carry one name, which denotes the reciprocal of the temperature as the
    reference holds it. -/
theorem preserves : Cert.preserves_Kernel_KernelIdeal :=
  ⟨IdealRules.named_const.statement Cert.KernelIdeal.κ "inv_temperature" .f32 0x41200000#32 ((134217728 / 13421773 : ℝ) : EReal) rfl,
   IdealRules.named_const.statement Cert.KernelIdeal.κ "inv_temperature" .f32 0x41200000#32 ((134217728 / 13421773 : ℝ) : EReal) rfl⟩

/-- From memories agreeing on the three arrays, all of whose entries are real by the precondition, the kernel program ends at
    the mean of the row losses of its arrays, and the reference at its own composed term of the same arrays, which is that
    mean. -/
theorem algebraic : Cert.algebraic_KernelIdeal_ReferenceIdeal := by
  intro m ρ m' ρ' hpre hagree
  refine ⟨fun c => KernelSide.meanLoss (KernelSide.lossArr
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))),
    KernelSide.run m ρ, ?_⟩
  refine (θ_run Cert.ReferenceIdeal.defs _ _).mono (fun _ h c => ⟨(h c).1.trans ?_, (h c).2⟩)
    (Cert.ReferenceIdeal.Value.run (F := Ideal) m' ρ')
  obtain ⟨hQ, hP, hN⟩ := allReal_of_finite_inputs _ _ _ (hpre c)
  rw [Cert.ReferenceIdeal.Read.val_main_v10_eq, (hagree c).1, (hagree c).2.1, (hagree c).2.2]
  exact mean_eq _ _ _ hQ hP hN

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
